-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x512 : Shape := ⟨3, ![64, 4096, 512]⟩
abbrev S64x4096x1 : Shape := ⟨3, ![64, 4096, 1]⟩
abbrev S64x4096x4 : Shape := ⟨3, ![64, 4096, 4]⟩
abbrev S64x4096x17x3 : Shape := ⟨4, ![64, 4096, 17, 3]⟩
abbrev S64x4096 : Shape := ⟨2, ![64, 4096]⟩
abbrev S513x256 : Shape := ⟨2, ![513, 256]⟩
abbrev S256 : Shape := ⟨1, ![256]⟩
abbrev S55x256 : Shape := ⟨2, ![55, 256]⟩
abbrev S_ : Shape := ⟨0, ![]⟩

class Facts : Prop where
  bcast_S_S64x4096x512 : S_.BroadcastsInDim S64x4096x512 (![] : Fin 0 → Fin S64x4096x512.rank)
  reducesTo_S64x4096x512_S_d0_1_2 : S64x4096x512.ReducesTo [0, 1, 2] S_
  h_S_ : 0 < S_.numel
  bcast_S_S64x4096x1 : S_.BroadcastsInDim S64x4096x1 (![] : Fin 0 → Fin S64x4096x1.rank)
  reducesTo_S64x4096x1_S_d0_1_2 : S64x4096x1.ReducesTo [0, 1, 2] S_
  bcast_S_S64x4096x4 : S_.BroadcastsInDim S64x4096x4 (![] : Fin 0 → Fin S64x4096x4.rank)
  reducesTo_S64x4096x4_S_d0_1_2 : S64x4096x4.ReducesTo [0, 1, 2] S_
  bcast_S_S64x4096x17x3 : S_.BroadcastsInDim S64x4096x17x3 (![] : Fin 0 → Fin S64x4096x17x3.rank)
  reducesTo_S64x4096x17x3_S_d0_1_2_3 : S64x4096x17x3.ReducesTo [0, 1, 2, 3] S_
  bcast_S_S513x256 : S_.BroadcastsInDim S513x256 (![] : Fin 0 → Fin S513x256.rank)
  reducesTo_S513x256_S_d0_1 : S513x256.ReducesTo [0, 1] S_
  bcast_S_S256 : S_.BroadcastsInDim S256 (![] : Fin 0 → Fin S256.rank)
  reducesTo_S256_S_d0 : S256.ReducesTo [0] S_
  bcast_S_S55x256 : S_.BroadcastsInDim S55x256 (![] : Fin 0 → Fin S55x256.rank)
  reducesTo_S55x256_S_d0_1 : S55x256.ReducesTo [0, 1] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S513x256 .f32) (main_arg6 : FVec F S256 .f32) (main_arg7 : FVec F S55x256 .f32) (main_arg8 : FVec F S256 .f32) (main_v13 : IVec S_ 1) (main_v16 : IVec S64x4096x17x3 1) : IVec S_ 1 :=
  let main_c_5 : IVec S_ 1 := constantI S_ 1 1#1
  let main_v17 : IVec S_ 1 := (fun x v => Host.reduce IntOp.andi x v reducesTo_S64x4096x17x3_S_d0_1_2_3 h_S_) main_v16 main_c_5
  let main_v18 : IVec S_ 1 := andi main_v13 main_v17
  let main_v19 : FVec F S513x256 .f32 := Host.absf main_arg5
  let main_cst_6 : FVec F S_ .f32 := constant S_ .f32 0x7F800000#32
  let main_v20 : FVec F S513x256 .f32 := broadcastInDim S513x256 ![] bcast_S_S513x256 main_cst_6
  let main_v21 : IVec S513x256 1 := cmpf .olt main_v19 main_v20
  let main_c_7 : IVec S_ 1 := constantI S_ 1 1#1
  let main_v22 : IVec S_ 1 := (fun x v => Host.reduce IntOp.andi x v reducesTo_S513x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S55x256 .f32 := Host.absf main_arg7
  let main_cst_10 : FVec F S_ .f32 := constant S_ .f32 0x7F800000#32
  let main_v30 : FVec F S55x256 .f32 := broadcastInDim S55x256 ![] bcast_S_S55x256 main_cst_10
  let main_v31 : IVec S55x256 1 := cmpf .olt main_v29 main_v30
  let main_c_11 : IVec S_ 1 := constantI S_ 1 1#1
  let main_v32 : IVec S_ 1 := (fun x v => Host.reduce IntOp.andi x v reducesTo_S55x256_S_d0_1 h_S_) main_v31 main_c_11
  let main_v33 : IVec S_ 1 := andi main_v28 main_v32
  fn_part2 (F := F) main_arg8 main_v33

def fn {F : FTy → Type} [FloatOps F] (main_arg0 : FVec F S64x4096x512 .f32) (main_arg1 : FVec F S64x4096x1 .f32) (main_arg2 : FVec F S64x4096x4 .f32) (main_arg3 : FVec F S64x4096x17x3 .f32) (main_arg4 : IVec S64x4096 1) (main_arg5 : FVec F S513x256 .f32) (main_arg6 : FVec F S256 .f32) (main_arg7 : FVec F S55x256 .f32) (main_arg8 : FVec F S256 .f32) : IVec S_ 1 :=
  let main_v0 : FVec F S64x4096x512 .f32 := Host.absf main_arg0
  let main_cst : FVec F S_ .f32 := constant S_ .f32 0x7F800000#32
  let main_v1 : FVec F S64x4096x512 .f32 := broadcastInDim S64x4096x512 ![] bcast_S_S64x4096x512 main_cst
  let main_v2 : IVec S64x4096x512 1 := cmpf .olt main_v0 main_v1
  let main_c : IVec S_ 1 := constantI S_ 1 1#1
  let main_v3 : IVec S_ 1 := (fun x v => Host.reduce IntOp.andi x v reducesTo_S64x4096x512_S_d0_1_2 h_S_) main_v2 main_c
  let main_v4 : FVec F S64x4096x1 .f32 := Host.absf main_arg1
  let main_cst_0 : FVec F S_ .f32 := constant S_ .f32 0x7F800000#32
  let main_v5 : FVec F S64x4096x1 .f32 := broadcastInDim S64x4096x1 ![] bcast_S_S64x4096x1 main_cst_0
  let main_v6 : IVec S64x4096x1 1 := cmpf .olt main_v4 main_v5
  let main_c_1 : IVec S_ 1 := constantI S_ 1 1#1
  let main_v7 : IVec S_ 1 := (fun x v => Host.reduce IntOp.andi x v reducesTo_S64x4096x1_S_d0_1_2 h_S_) main_v6 main_c_1
  let main_v8 : IVec S_ 1 := andi main_v3 main_v7
  let main_v9 : FVec F S64x4096x4 .f32 := Host.absf main_arg2
  let main_cst_2 : FVec F S_ .f32 := constant S_ .f32 0x7F800000#32
  let main_v10 : FVec F S64x4096x4 .f32 := broadcastInDim S64x4096x4 ![] bcast_S_S64x4096x4 main_cst_2
  let main_v11 : IVec S64x4096x4 1 := cmpf .olt main_v9 main_v10
  let main_c_3 : IVec S_ 1 := constantI S_ 1 1#1
  let main_v12 : IVec S_ 1 := (fun x v => Host.reduce IntOp.andi x v reducesTo_S64x4096x4_S_d0_1_2 h_S_) main_v11 main_c_3
  let main_v13 : IVec S_ 1 := andi main_v8 main_v12
  let main_v14 : FVec F S64x4096x17x3 .f32 := Host.absf main_arg3
  let main_cst_4 : FVec F S_ .f32 := constant S_ .f32 0x7F800000#32
  let main_v15 : FVec F S64x4096x17x3 .f32 := broadcastInDim S64x4096x17x3 ![] bcast_S_S64x4096x17x3 main_cst_4
  let main_v16 : IVec S64x4096x17x3 1 := cmpf .olt main_v14 main_v15
  fn_part1 (F := F) main_arg5 main_arg6 main_arg7 main_arg8 main_v13 main_v16
-- ==== Kernel.lean ====
abbrev S64x4096x512 : Shape := ⟨3, ![64, 4096, 512]⟩
abbrev S64x4096x1 : Shape := ⟨3, ![64, 4096, 1]⟩
abbrev S64x4096x4 : Shape := ⟨3, ![64, 4096, 4]⟩
abbrev S64x4096x17x3 : Shape := ⟨4, ![64, 4096, 17, 3]⟩
abbrev S64x4096 : Shape := ⟨2, ![64, 4096]⟩
abbrev S513x256 : Shape := ⟨2, ![513, 256]⟩
abbrev S256 : Shape := ⟨1, ![256]⟩
abbrev S55x256 : Shape := ⟨2, ![55, 256]⟩
abbrev S64x4096x51 : Shape := ⟨3, ![64, 4096, 51]⟩
abbrev S512x256 : Shape := ⟨2, ![512, 256]⟩
abbrev S1x256 : Shape := ⟨2, ![1, 256]⟩
abbrev S4x256 : Shape := ⟨2, ![4, 256]⟩
abbrev S51x256 : Shape := ⟨2, ![51, 256]⟩
abbrev S64x4096x256 : Shape := ⟨3, ![64, 4096, 256]⟩
abbrev S8x256x512 : Shape := ⟨3, ![8, 256, 512]⟩
abbrev S8x256x1 : Shape := ⟨3, ![8, 256, 1]⟩
abbrev S8x256x4 : Shape := ⟨3, ![8, 256, 4]⟩
abbrev S8x256x51 : Shape := ⟨3, ![8, 256, 51]⟩
abbrev S8x256 : Shape := ⟨2, ![8, 256]⟩
abbrev S8x256x256 : Shape := ⟨3, ![8, 256, 256]⟩
abbrev S2048x512 : Shape := ⟨2, ![2048, 512]⟩
abbrev S2048x256 : Shape := ⟨2, ![2048, 256]⟩
abbrev S2048x1 : Shape := ⟨2, ![2048, 1]⟩
abbrev S2048x4 : Shape := ⟨2, ![2048, 4]⟩
abbrev S2048x51 : Shape := ⟨2, ![2048, 51]⟩

abbrev nBuf : Space → Nat
  | .hbm => 18
  | .vmem => 18
  | .smem => 0
  | _ => 0

abbrev bufTy : (tb : Table) → Fin (tcTables nBuf tb) → BufTy
  | .hbm, ⟨0, _⟩ => ⟨S64x4096x512, .f32⟩
  | .hbm, ⟨1, _⟩ => ⟨S64x4096x1, .f32⟩
  | .hbm, ⟨2, _⟩ => ⟨S64x4096x4, .f32⟩
  | .hbm, ⟨3, _⟩ => ⟨S64x4096x17x3, .f32⟩
  | .hbm, ⟨4, _⟩ => ⟨S64x4096, .i1⟩
  | .hbm, ⟨5, _⟩ => ⟨S513x256, .f32⟩
  | .hbm, ⟨6, _⟩ => ⟨S256, .f32⟩
  | .hbm, ⟨7, _⟩ => ⟨S55x256, .f32⟩
  | .hbm, ⟨8, _⟩ => ⟨S256, .f32⟩
  | .hbm, ⟨9, _⟩ => ⟨S64x4096x51, .f32⟩
  | .hbm, ⟨10, _⟩ => ⟨S64x4096, .f32⟩
  | .hbm, ⟨11, _⟩ => ⟨S512x256, .f32⟩
  | .hbm, ⟨12, _⟩ => ⟨S1x256, .f32⟩
  | .hbm, ⟨13, _⟩ => ⟨S4x256, .f32⟩
  | .hbm, ⟨14, _⟩ => ⟨S51x256, .f32⟩
  | .hbm, ⟨15, _⟩ => ⟨S1x256, .f32⟩
  | .hbm, ⟨16, _⟩ => ⟨S1x256, .f32⟩
  | .hbm, ⟨17, _⟩ => ⟨S64x4096x256, .f32⟩
  | .local _ .vmem, ⟨0, _⟩ => ⟨S8x256x512, .f32⟩
  | .local _ .vmem, ⟨1, _⟩ => ⟨S8x256x512, .f32⟩
  | .local _ .vmem, ⟨2, _⟩ => ⟨S8x256x1, .f32⟩
  | .local _ .vmem, ⟨3, _⟩ => ⟨S8x256x1, .f32⟩
  | .local _ .vmem, ⟨4, _⟩ => ⟨S8x256x4, .f32⟩
  | .local _ .vmem, ⟨5, _⟩ => ⟨S8x256x4, .f32⟩
  | .local _ .vmem, ⟨6, _⟩ => ⟨S8x256x51, .f32⟩
  | .local _ .vmem, ⟨7, _⟩ => ⟨S8x256x51, .f32⟩
  | .local _ .vmem, ⟨8, _⟩ => ⟨S8x256, .f32⟩
  | .local _ .vmem, ⟨9, _⟩ => ⟨S8x256, .f32⟩
  | .local _ .vmem, ⟨10, _⟩ => ⟨S512x256, .f32⟩
  | .local _ .vmem, ⟨11, _⟩ => ⟨S1x256, .f32⟩
  | .local _ .vmem, ⟨12, _⟩ => ⟨S1x256, .f32⟩
  | .local _ .vmem, ⟨13, _⟩ => ⟨S4x256, .f32⟩
  | .local _ .vmem, ⟨14, _⟩ => ⟨S51x256, .f32⟩
  | .local _ .vmem, ⟨15, _⟩ => ⟨S1x256, .f32⟩
  | .local _ .vmem, ⟨16, _⟩ => ⟨S8x256x256, .f32⟩
  | .local _ .vmem, ⟨17, _⟩ => ⟨S8x256x256, .f32⟩
  | _, _ => ⟨S64x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x51 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S51x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S64x4096x17x3_S64x4096x51 : S64x4096x17x3.ShapeCasts S64x4096x51
  slices_S513x256_S512x256_0_0 : S513x256.Slices ![0, 0] S512x256
  slices_S513x256_S1x256_512_0 : S513x256.Slices ![512, 0] S1x256
  slices_S55x256_S4x256_0_0 : S55x256.Slices ![0, 0] S4x256
  slices_S55x256_S51x256_4_0 : S55x256.Slices ![4, 0] S51x256
  shapeCasts_S256_S1x256 : S256.ShapeCasts S1x256
  inb_S8x256x512_S8x256x512_0_0_0 : ∀ a, (![0, 0, 0] : Fin 3 → Nat) a + S8x256x512.size a ≤ S8x256x512.size a
  h_S8x256x512 : 0 < S8x256x512.numel
  shapeCasts_S8x256x512_S2048x512 : S8x256x512.ShapeCasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S8x256x1_S8x256x1_0_0_0 : ∀ a, (![0, 0, 0] : Fin 3 → Nat) a + S8x256x1.size a ≤ S8x256x1.size a
  h_S8x256x1 : 0 < S8x256x1.numel
  shapeCasts_S8x256x1_S2048x1 : S8x256x1.ShapeCasts S2048x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  inb_S8x256x4_S8x256x4_0_0_0 : ∀ a, (![0, 0, 0] : Fin 3 → Nat) a + S8x256x4.size a ≤ S8x256x4.size a
  h_S8x256x4 : 0 < S8x256x4.numel
  shapeCasts_S8x256x4_S2048x4 : S8x256x4.ShapeCasts S2048x4
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S8x256x51_S8x256x51_0_0_0 : ∀ a, (![0, 0, 0] : Fin 3 → Nat) a + S8x256x51.size a ≤ S8x256x51.size a
  h_S8x256x51 : 0 < S8x256x51.numel
  shapeCasts_S8x256x51_S8x256x51 : S8x256x51.ShapeCasts S8x256x51
  shapeCasts_S8x256x51_S2048x51 : S8x256x51.ShapeCasts S2048x51
  inb_S51x256_S51x256_0_0 : ∀ a, (![0, 0] : Fin 2 → Nat) a + S51x256.size a ≤ S51x256.size a
  h_S51x256 : 0 < S51x256.numel
  shapeCasts_S51x256_S51x256 : S51x256.ShapeCasts S51x256
  shapeCasts_S2048x256_S8x256x256 : S2048x256.ShapeCasts S8x256x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  broadcasts_S8x256x1_S8x256x256 : S8x256x1.Broadcasts S8x256x256
  inb_S8x256x256_S8x256x256_0_0_0 : ∀ a, (![0, 0, 0] : Fin 3 → Nat) a + S8x256x256.size a ≤ S8x256x256.size a
  h_S8x256x256 : 0 < S8x256x256.numel
  dot_S2048x512_S512x256_S2048x256_1_0_0_1_n_n_wf : DotDims.WF S2048x512 S512x256 S2048x256 [1] [0] [0] [1] [] []
  dot_S2048x4_S4x256_S2048x256_1_0_0_1_n_n_wf : DotDims.WF S2048x4 S4x256 S2048x256 [1] [0] [0] [1] [] []
  dot_S2048x51_S51x256_S2048x256_1_0_0_1_n_n_wf : DotDims.WF S2048x51 S51x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S64x4096x512.size a
  hwx0_0 : ∀ i : grid0.Coords, EltTy.bits .f32 = 32 ∨ (Rect.block (s := S64x4096x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1.size a ≤ S64x4096x1.size a
  hwx0_1 : ∀ i : grid0.Coords, EltTy.bits .f32 = 32 ∨ (Rect.block (s := S64x4096x1) S8x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x4.size a ≤ S64x4096x4.size a
  hwx0_2 : ∀ i : grid0.Coords, EltTy.bits .f32 = 32 ∨ (Rect.block (s := S64x4096x4) S8x256x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x51.size a ≤ S64x4096x51.size a
  hwx0_3 : ∀ i : grid0.Coords, EltTy.bits .f32 = 32 ∨ (Rect.block (s := S64x4096x51) S8x256x51.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S64x4096.size a
  hwx0_4 : ∀ i : grid0.Coords, EltTy.bits .f32 = 32 ∨ (Rect.block (s := S64x4096) S8x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S51x256.size a ≤ S51x256.size a
  hwx0_9 : ∀ i : grid0.Coords, EltTy.bits .f32 = 32 ∨ (Rect.block (s := S51x256) S51x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x256x256.size a ≤ S64x4096x256.size a
  hwx0_11 : ∀ i : grid0.Coords, EltTy.bits .f32 = 32 ∨ (Rect.block (s := S64x4096x256) S8x256x256.size (cc0_transform_11 i) (hinb0_11 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x4_S4x256_S2048x256_1_0_0_1_n_n : DotDims S2048x4 S4x256 S2048x256 where
  lhsContracting := [1]
  rhsContracting := [0]
  lhsNonContracting := [0]
  rhsNonContracting := [1]
  lhsBatch := []
  rhsBatch := []
  wf := dot_S2048x4_S4x256_S2048x256_1_0_0_1_n_n_wf
def dot_S2048x51_S51x256_S2048x256_1_0_0_1_n_n : DotDims S2048x51 S51x256 S2048x256 where
  lhsContracting := [1]
  rhsContracting := [0]
  lhsNonContracting := [0]
  rhsNonContracting := [1]
  lhsBatch := []
  rhsBatch := []
  wf := dot_S2048x51_S51x256_S2048x256_1_0_0_1_n_n_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x256x51.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S51x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S8x256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x4096x512 : Shape := ⟨3, ![64, 4096, 512]⟩
abbrev S64x4096x1 : Shape := ⟨3, ![64, 4096, 1]⟩
abbrev S64x4096x4 : Shape := ⟨3, ![64, 4096, 4]⟩
abbrev S64x4096x17x3 : Shape := ⟨4, ![64, 4096, 17, 3]⟩
abbrev S64x4096 : Shape := ⟨2, ![64, 4096]⟩
abbrev S513x256 : Shape := ⟨2, ![513, 256]⟩
abbrev S256 : Shape := ⟨1, ![256]⟩
abbrev S55x256 : Shape := ⟨2, ![55, 256]⟩
abbrev S64x4096x513 : Shape := ⟨3, ![64, 4096, 513]⟩
abbrev S64x4096x256 : Shape := ⟨3, ![64, 4096, 256]⟩
abbrev S1x1x256 : Shape := ⟨3, ![1, 1, 256]⟩
abbrev S64x4096x51 : Shape := ⟨3, ![64, 4096, 51]⟩
abbrev S64x4096x55 : Shape := ⟨3, ![64, 4096, 55]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S64x4096x512, .f32⟩
  | .hbm, ⟨1, _⟩ => ⟨S64x4096x1, .f32⟩
  | .hbm, ⟨2, _⟩ => ⟨S64x4096x4, .f32⟩
  | .hbm, ⟨3, _⟩ => ⟨S64x4096x17x3, .f32⟩
  | .hbm, ⟨4, _⟩ => ⟨S64x4096, .i1⟩
  | .hbm, ⟨5, _⟩ => ⟨S513x256, .f32⟩
  | .hbm, ⟨6, _⟩ => ⟨S256, .f32⟩
  | .hbm, ⟨7, _⟩ => ⟨S55x256, .f32⟩
  | .hbm, ⟨8, _⟩ => ⟨S256, .f32⟩
  | .hbm, ⟨9, _⟩ => ⟨S64x4096x513, .f32⟩
  | .hbm, ⟨10, _⟩ => ⟨S64x4096x256, .f32⟩
  | .hbm, ⟨11, _⟩ => ⟨S1x1x256, .f32⟩
  | .hbm, ⟨12, _⟩ => ⟨S64x4096x256, .f32⟩
  | .hbm, ⟨13, _⟩ => ⟨S64x4096x256, .f32⟩
  | .hbm, ⟨14, _⟩ => ⟨S64x4096x51, .f32⟩
  | .hbm, ⟨15, _⟩ => ⟨S64x4096x55, .f32⟩
  | .hbm, ⟨16, _⟩ => ⟨S64x4096x256, .f32⟩
  | .hbm, ⟨17, _⟩ => ⟨S1x1x256, .f32⟩
  | .hbm, ⟨18, _⟩ => ⟨S64x4096x256, .f32⟩
  | .hbm, ⟨19, _⟩ => ⟨S64x4096x256, .f32⟩
  | .hbm, ⟨20, _⟩ => ⟨S64x4096x1, .i1⟩
  | .hbm, ⟨21, _⟩ => ⟨S64x4096x256, .f32⟩
  | .hbm, ⟨22, _⟩ => ⟨S_, .f32⟩
  | .hbm, ⟨23, _⟩ => ⟨S64x4096x256, .i1⟩
  | .hbm, ⟨24, _⟩ => ⟨S64x4096x256, .f32⟩
  | .hbm, ⟨25, _⟩ => ⟨S64x4096x256, .f32⟩
  | _, _ => ⟨S64x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  concatenates_S64x4096x512_S64x4096x1_S64x4096x513_d2 : Shape.Concatenates [S64x4096x512, S64x4096x1] S64x4096x513 2
  bcast_S256_S1x1x256_2 : S256.BroadcastsInDim S1x1x256 (![2] : Fin 1 → Fin S1x1x256.rank)
  bcast_S1x1x256_S64x4096x256_0_1_2 : S1x1x256.BroadcastsInDim S64x4096x256 (![0, 1, 2] : Fin 3 → Fin S64x4096x256.rank)
  shapeCasts_S64x4096x17x3_S64x4096x51 : S64x4096x17x3.ShapeCasts S64x4096x51
  concatenates_S64x4096x4_S64x4096x51_S64x4096x55_d2 : Shape.Concatenates [S64x4096x4, S64x4096x51] S64x4096x55 2
  bcast_S64x4096_S64x4096x1_0_1 : S64x4096.BroadcastsInDim S64x4096x1 (![0, 1] : Fin 2 → Fin S64x4096x1.rank)
  bcast_S64x4096x1_S64x4096x256_0_1_2 : S64x4096x1.BroadcastsInDim S64x4096x256 (![0, 1, 2] : Fin 3 → Fin S64x4096x256.rank)
  bcast_S_S64x4096x256 : S_.BroadcastsInDim S64x4096x256 (![] : Fin 0 → Fin S64x4096x256.rank)
  dot_S64x4096x513_S513x256_S64x4096x256_2_0_01_1_n_n_wf : DotDims.WF S64x4096x513 S513x256 S64x4096x256 [2] [0] [0, 1] [1] [] []
  dot_S64x4096x55_S55x256_S64x4096x256_2_0_01_1_n_n_wf : DotDims.WF S64x4096x55 S55x256 S64x4096x256 [2] [0] [0, 1] [1] [] []

variable [Facts₀]

def dot_S64x4096x513_S513x256_S64x4096x256_2_0_01_1_n_n : DotDims S64x4096x513 S513x256 S64x4096x256 where
  lhsContracting := [2]
  rhsContracting := [0]
  lhsNonContracting := [0, 1]
  rhsNonContracting := [1]
  lhsBatch := []
  rhsBatch := []
  wf := dot_S64x4096x513_S513x256_S64x4096x256_2_0_01_1_n_n_wf
def dot_S64x4096x55_S55x256_S64x4096x256_2_0_01_1_n_n : DotDims S64x4096x55 S55x256 S64x4096x256 where
  lhsContracting := [2]
  rhsContracting := [0]
  lhsNonContracting := [0, 1]
  rhsNonContracting := [1]
  lhsBatch := []
  rhsBatch := []
  wf := dot_S64x4096x55_S55x256_S64x4096x256_2_0_01_1_n_n_wf

class Facts : Prop extends Facts₀ where

variable [Facts]
-- ==== Proof.Tokens.lean ====
/-
  One masked token, as a function of the arrays a tile sees.

  For a batch row `b`, a position `n` and an output channel `t` the value is

      ( ((Σ_{k<512} emb[b,n,k]·wE[k,t]  +  vis[b,n,0]·wV[0,t])  +  bA[0,t])
      + ((Σ_{k<4}  box[b,n,k]·wB[k,t]  +  Σ_{k<51} kp[b,n,k]·wK[k,t])  +  bS[0,t]) ) · msk[b,n]

  on the extended reals: the appearance projection (512 embedding channels plus the one visibility channel) and the
  spatio-temporal projection (4 box channels plus 51 keypoint channels), each with its bias, added, and multiplied by the
  mask's 0 or 1. The formula is stated once for leading extents `B`, `N`, so that it reads both a tile's blocks
  (`B = 8`, `N = 256`) and the whole arrays (`B = 64`, `N = 4096`): a tile's value at `(p, r, t)` is the whole arrays'
  value at `(8 i + p, 256 j + r, t)` because every block is read at exactly those rows.

  Below it, the layout operations the tile's arithmetic passes through, each read at an index given by coordinates:
  a `[8, 256, c]` block laid out as `2048` rows of `c` and back, a column `[2048, 1]` broadcast along the rows' entries,
  a `[8, 256]` block given a trailing unit axis, and that axis broadcast to `256` channels.
-/
import Idealize.ShloMosaic.PureOps.Ideal
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.MaskedTokens

/-- The value of one token at batch row `b`, position `n`, channel `t`: the two projections with their biases, added, times
    the mask. -/
def tok {B N : ℕ}
    (emb : (⟨3, ![B, N, 512]⟩ : Shape).Idx → EReal) (vis : (⟨3, ![B, N, 1]⟩ : Shape).Idx → EReal)
    (box : (⟨3, ![B, N, 4]⟩ : Shape).Idx → EReal) (kp : (⟨3, ![B, N, 51]⟩ : Shape).Idx → EReal)
    (msk : (⟨2, ![B, N]⟩ : Shape).Idx → EReal)
    (wE : (⟨2, ![512, 256]⟩ : Shape).Idx → EReal) (wV : (⟨2, ![1, 256]⟩ : Shape).Idx → EReal)
    (bA : (⟨2, ![1, 256]⟩ : Shape).Idx → EReal)
    (wB : (⟨2, ![4, 256]⟩ : Shape).Idx → EReal) (wK : (⟨2, ![51, 256]⟩ : Shape).Idx → EReal)
    (bS : (⟨2, ![1, 256]⟩ : Shape).Idx → EReal)
    (b : Fin B) (n : Fin N) (t : Fin 256) : EReal :=
  ((((∑ k : Fin 512, emb (ix3 b n k) * wE (ix2 k t)) + vis (ix3 b n (0 : Fin 1)) * wV (ix2 (0 : Fin 1) t))
      + bA (ix2 (0 : Fin 1) t))
    + (((∑ k : Fin 4, box (ix3 b n k) * wB (ix2 k t)) + ∑ k : Fin 51, kp (ix3 b n k) * wK (ix2 k t))
      + bS (ix2 (0 : Fin 1) t)))
  * msk (ix2 b n)

/-- The whole result array as a function of the nine arguments: `tok` over the arguments as a tile finds them — the keypoints'
    last two axes `[17, 3]` flattened to `51` channels, the mask's bit read as the number 0 or 1, each weight matrix cut at the
    row where its two groups of input channels meet, each bias laid as one row. -/
def result
    (x0 : (⟨3, ![64, 4096, 512]⟩ : Shape).Idx → EReal) (x1 : (⟨3, ![64, 4096, 1]⟩ : Shape).Idx → EReal)
    (x2 : (⟨3, ![64, 4096, 4]⟩ : Shape).Idx → EReal) (x3 : (⟨4, ![64, 4096, 17, 3]⟩ : Shape).Idx → EReal)
    (x4 : (⟨2, ![64, 4096]⟩ : Shape).Idx → BitVec 1)
    (x5 : (⟨2, ![513, 256]⟩ : Shape).Idx → EReal) (x6 : (⟨1, ![256]⟩ : Shape).Idx → EReal)
    (x7 : (⟨2, ![55, 256]⟩ : Shape).Idx → EReal) (x8 : (⟨1, ![256]⟩ : Shape).Idx → EReal)
    (hkp : (⟨4, ![64, 4096, 17, 3]⟩ : Shape).ShapeCasts ⟨3, ![64, 4096, 51]⟩)
    (hE : (⟨2, ![513, 256]⟩ : Shape).Slices ![0, 0] ⟨2, ![512, 256]⟩)
    (hV : (⟨2, ![513, 256]⟩ : Shape).Slices ![512, 0] ⟨2, ![1, 256]⟩)
    (hB : (⟨2, ![55, 256]⟩ : Shape).Slices ![0, 0] ⟨2, ![4, 256]⟩)
    (hK : (⟨2, ![55, 256]⟩ : Shape).Slices ![4, 0] ⟨2, ![51, 256]⟩)
    (hb : (⟨1, ![256]⟩ : Shape).ShapeCasts ⟨2, ![1, 256]⟩) :
    (⟨3, ![64, 4096, 256]⟩ : Shape).Idx → EReal := fun i =>
  tok (B := 64) (N := 4096) x0 x1 x2 (shapeCast ⟨3, ![64, 4096, 51]⟩ x3 hkp) (uitofp (F := Ideal) .f32 x4)
    (extractStridedSlice ⟨2, ![512, 256]⟩ ![0, 0] x5 hE) (extractStridedSlice ⟨2, ![1, 256]⟩ ![512, 0] x5 hV)
    (shapeCast ⟨2, ![1, 256]⟩ x6 hb)
    (extractStridedSlice ⟨2, ![4, 256]⟩ ![0, 0] x7 hB) (extractStridedSlice ⟨2, ![51, 256]⟩ ![4, 0] x7 hK)
    (shapeCast ⟨2, ![1, 256]⟩ x8 hb) (i 0) (i 1) (i 2)

section Layout
variable {α : Type}

/-- Row `256 p + r` of the `2048` rows a `[8, 256, c]` block is laid out as. -/
abbrev row (p : Fin 8) (r : Fin 256) : Fin 2048 := ⟨p.val * 256 + r.val, by have := p.isLt; have := r.isLt; omega⟩

/-- A `[8, 256, c]` block laid out as `[2048, c]` reads, at row `256 p + r` and entry `k`, the block at `(p, r, k)`. -/
theorem rows_apply {c : ℕ} (x : (⟨3, ![8, 256, c]⟩ : Shape).Idx → α)
    (h : (⟨3, ![8, 256, c]⟩ : Shape).ShapeCasts ⟨2, ![2048, c]⟩) (p : Fin 8) (r : Fin 256) (k : Fin c) :
    shapeCast ⟨2, ![2048, c]⟩ x h (ix2 (row p r) k) = x (ix3 p r k) :=
  shapeCast_apply x h _ _ (by
    rw [Shape.rowMajor_val_three, Shape.rowMajor_val_two]
    show (p.val * 256 + r.val) * c + k.val = (p.val * 256 + r.val) * c + k.val
    rfl)

/-- `2048` rows of `c` laid back as a `[8, 256, c]` block read, at `(p, r, k)`, row `256 p + r` at entry `k`. -/
theorem unrows_apply {c : ℕ} (x : (⟨2, ![2048, c]⟩ : Shape).Idx → α)
    (h : (⟨2, ![2048, c]⟩ : Shape).ShapeCasts ⟨3, ![8, 256, c]⟩) (p : Fin 8) (r : Fin 256) (k : Fin c) :
    shapeCast ⟨3, ![8, 256, c]⟩ x h (ix3 p r k) = x (ix2 (row p r) k) :=
  shapeCast_apply x h _ _ (by
    rw [Shape.rowMajor_val_three, Shape.rowMajor_val_two]
    show (p.val * 256 + r.val) * c + k.val = (p.val * 256 + r.val) * c + k.val
    rfl)

/-- A column `[a, 1]` broadcast to `[a, b]` reads, at `(q, t)`, the column at row `q`. -/
theorem column_apply {a b : ℕ} (v : (⟨2, ![a, 1]⟩ : Shape).Idx → α) (h : (⟨2, ![a, 1]⟩ : Shape).Broadcasts ⟨2, ![a, b]⟩)
    (q : Fin a) (t : Fin b) : broadcastTo ⟨2, ![a, b]⟩ v h (ix2 q t) = v (ix2 q (0 : Fin 1)) := by
  refine broadcastTo_apply v h (ix2 q t) (ix2 q (0 : Fin 1)) fun ax => ?_
  match ax with
  | ⟨0, _⟩ =>
    show q.val = if a = 1 then 0 else q.val
    split
    · have := q.isLt; omega
    · rfl
  | ⟨1, _⟩ => rfl

/-- A `[a, b]` array given a trailing unit axis reads, at `(p, r, 0)`, the array at `(p, r)`. -/
theorem trailingUnit_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_three, Shape.rowMajor_val_two]
    show p.val * b + r.val = (p.val * b + r.val) * 1 + u.val
    rw [hu, Nat.mul_one, Nat.add_zero])

/-- A trailing unit axis broadcast to `c` entries reads, at `(p, r, t)`, the operand at `(p, r, 0)`. -/
theorem trailingBroadcast_apply {a b c : ℕ} (v : (⟨3, ![a, b, 1]⟩ : Shape).Idx → α)
    (h : (⟨3, ![a, b, 1]⟩ : Shape).Broadcasts ⟨3, ![a, b, c]⟩) (p : Fin a) (r : Fin b) (t : Fin c) :
    broadcastTo ⟨3, ![a, b, c]⟩ v h (ix3 p r t) = v (ix3 p r (0 : Fin 1)) := by
  refine broadcastTo_apply v h (ix3 p r t) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

end Layout

end Cert.MaskedTokens

end
-- ==== Proof.Tile.lean ====
/-
  What one tile stores, entry by entry.

  A tile holds `8 × 256` tokens. Its arithmetic works on them as `2048` rows: the embedding block `[8, 256, 512]` becomes
  `2048` rows of `512`, is multiplied into the `[512, 256]` weights; the visibility column `[2048, 1]` times the one weight row
  `[1, 256]` is added entry by entry (a contraction over a single channel is that product); the bias row is added; the box
  and keypoint rows are multiplied into their weights and added with their bias; the two halves are added, the `2048` rows
  are laid back as `[8, 256, 256]`, and each token's row is multiplied by its mask entry. At the exact values a change of
  float format is the identity and a block product into a zero accumulator is the plain sum over the contracted entries,
  so at the entry `(p, r, t)` of the stored block all of this is `tok` of the tile's own blocks at `(p, r, t)`.
-/
import proofs.«138796_j18021682774670_1_alg».proof.Proof.Gen.KernelIdeal.Skeleton
import proofs.«138796_j18021682774670_1_alg».proof.Proof.Tokens
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.MaskedTokens.Tile

open Cert.KernelIdeal Cert.KernelIdeal.Gen Cert.MaskedTokens

/-! ### The block product with 512 contracted entries -/

/-- On the left operand's row axis the product's operand index is the output's row. -/
theorem embProduct_lhs_row (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- On the left operand's entry axis it is the contraction index. -/
theorem embProduct_lhs_entry (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- On the right operand's row axis it is the contraction index. -/
theorem embProduct_rhs_row (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
/-- On the right operand's channel axis it is the output's channel. -/
theorem embProduct_rhs_channel (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The embedding rows times the embedding weights, into zero: at row `q`, channel `t` the sum over the 512 embedding channels. -/
theorem embProduct_apply (l : FVec Ideal S2048x512 .bf16) (r : FVec Ideal S512x256 .bf16) (q : Fin 2048) (t : Fin 256) :
    matmul dot_S2048x512_S512x256_S2048x256_1_0_0_1_n_n none l r (constant (F := Ideal) S2048x256 .f32 0x00000000#32) (ix2 q t)
      = ∑ k : Fin 512, l (ix2 q k) * r (ix2 k t) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 q t) ((contrEquiv1 dot_S2048x512_S512x256_S2048x256_1_0_0_1_n_n 512 rfl rfl).symm k) = ix2 q k := funext fun a => Fin.ext (by
    match a with
    | ⟨0, _⟩ => exact embProduct_lhs_row _ _
    | ⟨1, _⟩ => exact (embProduct_lhs_entry _ _).trans hk)
  have er : dot_S2048x512_S512x256_S2048x256_1_0_0_1_n_n.rhsIdx (ix2 q t) ((contrEquiv1 dot_S2048x512_S512x256_S2048x256_1_0_0_1_n_n 512 rfl rfl).symm k) = ix2 k t := funext fun a => Fin.ext (by
    match a with
    | ⟨0, _⟩ => exact (embProduct_rhs_row _ _).trans hk
    | ⟨1, _⟩ => exact embProduct_rhs_channel _ _)
  rw [el, er]

/-! ### The block product with 4 contracted entries -/

/-- On the left operand's row axis the product's operand index is the output's row. -/
theorem boxProduct_lhs_row (i : S2048x256.Idx) (q : dot_S2048x4_S4x256_S2048x256_1_0_0_1_n_n.contr.Idx) :
    (dot_S2048x4_S4x256_S2048x256_1_0_0_1_n_n.lhsIdx i q 0).val = (i 0).val := by
  unfold DotDims.lhsIdx
  rw [dif_neg (show ¬(0 : Fin S2048x4.rank) ∈ dot_S2048x4_S4x256_S2048x256_1_0_0_1_n_n.lhsBatch by decide), dif_pos (show (0 : Fin S2048x4.rank) ∈ dot_S2048x4_S4x256_S2048x256_1_0_0_1_n_n.lhsNonContracting by decide)]
  rfl
/-- On the left operand's entry axis it is the contraction index. -/
theorem boxProduct_lhs_entry (i : S2048x256.Idx) (q : dot_S2048x4_S4x256_S2048x256_1_0_0_1_n_n.contr.Idx) :
    (dot_S2048x4_S4x256_S2048x256_1_0_0_1_n_n.lhsIdx i q 1).val = (q ⟨0, by decide⟩).val :=
  dot_S2048x4_S4x256_S2048x256_1_0_0_1_n_n.lhsIdx_val_of_single rfl i q
/-- On the right operand's row axis it is the contraction index. -/
theorem boxProduct_rhs_row (i : S2048x256.Idx) (q : dot_S2048x4_S4x256_S2048x256_1_0_0_1_n_n.contr.Idx) :
    (dot_S2048x4_S4x256_S2048x256_1_0_0_1_n_n.rhsIdx i q 0).val = (q ⟨0, by decide⟩).val :=
  dot_S2048x4_S4x256_S2048x256_1_0_0_1_n_n.rhsIdx_val_of_single rfl i q
/-- On the right operand's channel axis it is the output's channel. -/
theorem boxProduct_rhs_channel (i : S2048x256.Idx) (q : dot_S2048x4_S4x256_S2048x256_1_0_0_1_n_n.contr.Idx) :
    (dot_S2048x4_S4x256_S2048x256_1_0_0_1_n_n.rhsIdx i q 1).val = (i 1).val := by
  unfold DotDims.rhsIdx
  rw [dif_neg (show ¬(1 : Fin S4x256.rank) ∈ dot_S2048x4_S4x256_S2048x256_1_0_0_1_n_n.rhsBatch by decide), dif_pos (show (1 : Fin S4x256.rank) ∈ dot_S2048x4_S4x256_S2048x256_1_0_0_1_n_n.rhsNonContracting by decide)]
  rfl

/-- The box rows times the box weights, into zero: at row `q`, channel `t` the sum over the 4 box channels. -/
theorem boxProduct_apply (l : FVec Ideal S2048x4 .bf16) (r : FVec Ideal S4x256 .bf16) (q : Fin 2048) (t : Fin 256) :
    matmul dot_S2048x4_S4x256_S2048x256_1_0_0_1_n_n none l r (constant (F := Ideal) S2048x256 .f32 0x00000000#32) (ix2 q t)
      = ∑ k : Fin 4, l (ix2 q k) * r (ix2 k t) := by
  simp only [matmul]
  rw [Ideal.matmul_constant_zero_apply, ← Equiv.sum_comp (contrEquiv1 dot_S2048x4_S4x256_S2048x256_1_0_0_1_n_n 4 rfl rfl).symm]
  refine Finset.sum_congr rfl fun k _ => ?_
  have hk := contrEquiv1_symm_val dot_S2048x4_S4x256_S2048x256_1_0_0_1_n_n 4 rfl rfl k
  have el : dot_S2048x4_S4x256_S2048x256_1_0_0_1_n_n.lhsIdx (ix2 q t) ((contrEquiv1 dot_S2048x4_S4x256_S2048x256_1_0_0_1_n_n 4 rfl rfl).symm k) = ix2 q k := funext fun a => Fin.ext (by
    match a with
    | ⟨0, _⟩ => exact boxProduct_lhs_row _ _
    | ⟨1, _⟩ => exact (boxProduct_lhs_entry _ _).trans hk)
  have er : dot_S2048x4_S4x256_S2048x256_1_0_0_1_n_n.rhsIdx (ix2 q t) ((contrEquiv1 dot_S2048x4_S4x256_S2048x256_1_0_0_1_n_n 4 rfl rfl).symm k) = ix2 k t := funext fun a => Fin.ext (by
    match a with
    | ⟨0, _⟩ => exact (boxProduct_rhs_row _ _).trans hk
    | ⟨1, _⟩ => exact boxProduct_rhs_channel _ _)
  rw [el, er]

/-! ### The block product with 51 contracted entries -/

/-- On the left operand's row axis the product's operand index is the output's row. -/
theorem kpProduct_lhs_row (i : S2048x256.Idx) (q : dot_S2048x51_S51x256_S2048x256_1_0_0_1_n_n.contr.Idx) :
    (dot_S2048x51_S51x256_S2048x256_1_0_0_1_n_n.lhsIdx i q 0).val = (i 0).val := by
  unfold DotDims.lhsIdx
  rw [dif_neg (show ¬(0 : Fin S2048x51.rank) ∈ dot_S2048x51_S51x256_S2048x256_1_0_0_1_n_n.lhsBatch by decide), dif_pos (show (0 : Fin S2048x51.rank) ∈ dot_S2048x51_S51x256_S2048x256_1_0_0_1_n_n.lhsNonContracting by decide)]
  rfl
/-- On the left operand's entry axis it is the contraction index. -/
theorem kpProduct_lhs_entry (i : S2048x256.Idx) (q : dot_S2048x51_S51x256_S2048x256_1_0_0_1_n_n.contr.Idx) :
    (dot_S2048x51_S51x256_S2048x256_1_0_0_1_n_n.lhsIdx i q 1).val = (q ⟨0, by decide⟩).val :=
  dot_S2048x51_S51x256_S2048x256_1_0_0_1_n_n.lhsIdx_val_of_single rfl i q
/-- On the right operand's row axis it is the contraction index. -/
theorem kpProduct_rhs_row (i : S2048x256.Idx) (q : dot_S2048x51_S51x256_S2048x256_1_0_0_1_n_n.contr.Idx) :
    (dot_S2048x51_S51x256_S2048x256_1_0_0_1_n_n.rhsIdx i q 0).val = (q ⟨0, by decide⟩).val :=
  dot_S2048x51_S51x256_S2048x256_1_0_0_1_n_n.rhsIdx_val_of_single rfl i q
/-- On the right operand's channel axis it is the output's channel. -/
theorem kpProduct_rhs_channel (i : S2048x256.Idx) (q : dot_S2048x51_S51x256_S2048x256_1_0_0_1_n_n.contr.Idx) :
    (dot_S2048x51_S51x256_S2048x256_1_0_0_1_n_n.rhsIdx i q 1).val = (i 1).val := by
  unfold DotDims.rhsIdx
  rw [dif_neg (show ¬(1 : Fin S51x256.rank) ∈ dot_S2048x51_S51x256_S2048x256_1_0_0_1_n_n.rhsBatch by decide), dif_pos (show (1 : Fin S51x256.rank) ∈ dot_S2048x51_S51x256_S2048x256_1_0_0_1_n_n.rhsNonContracting by decide)]
  rfl

/-- The keypoint rows times the keypoint weights, into zero: at row `q`, channel `t` the sum over the 51 keypoint channels. -/
theorem kpProduct_apply (l : FVec Ideal S2048x51 .bf16) (r : FVec Ideal S51x256 .bf16) (q : Fin 2048) (t : Fin 256) :
    matmul dot_S2048x51_S51x256_S2048x256_1_0_0_1_n_n none l r (constant (F := Ideal) S2048x256 .f32 0x00000000#32) (ix2 q t)
      = ∑ k : Fin 51, l (ix2 q k) * r (ix2 k t) := by
  simp only [matmul]
  rw [Ideal.matmul_constant_zero_apply, ← Equiv.sum_comp (contrEquiv1 dot_S2048x51_S51x256_S2048x256_1_0_0_1_n_n 51 rfl rfl).symm]
  refine Finset.sum_congr rfl fun k _ => ?_
  have hk := contrEquiv1_symm_val dot_S2048x51_S51x256_S2048x256_1_0_0_1_n_n 51 rfl rfl k
  have el : dot_S2048x51_S51x256_S2048x256_1_0_0_1_n_n.lhsIdx (ix2 q t) ((contrEquiv1 dot_S2048x51_S51x256_S2048x256_1_0_0_1_n_n 51 rfl rfl).symm k) = ix2 q k := funext fun a => Fin.ext (by
    match a with
    | ⟨0, _⟩ => exact kpProduct_lhs_row _ _
    | ⟨1, _⟩ => exact (kpProduct_lhs_entry _ _).trans hk)
  have er : dot_S2048x51_S51x256_S2048x256_1_0_0_1_n_n.rhsIdx (ix2 q t) ((contrEquiv1 dot_S2048x51_S51x256_S2048x256_1_0_0_1_n_n 51 rfl rfl).symm k) = ix2 k t := funext fun a => Fin.ext (by
    match a with
    | ⟨0, _⟩ => exact (kpProduct_rhs_row _ _).trans hk
    | ⟨1, _⟩ => exact kpProduct_rhs_channel _ _)
  rw [el, er]

/-! ### The stored value's parts at an entry -/

/-- The appearance half at row `256 p + r`, channel `t`: the embedding sum, plus visibility times its weight, plus the bias. -/
theorem appearance_apply (x0 : Vec Ideal S8x256x512 .f32) (x5 : Vec Ideal S512x256 .f32) (x1 : Vec Ideal S8x256x1 .f32)
    (x6 x7 : Vec Ideal S1x256 .f32) (p : Fin 8) (r : Fin 256) (t : Fin 256) :
    k0_pay2 (F := Ideal) x0 x5 x1 x6 x7 (ix2 (row p r) t)
      = ((∑ k : Fin 512, x0 (ix3 p r k) * x5 (ix2 k t)) + x1 (ix3 p r (0 : Fin 1)) * x6 (ix2 (0 : Fin 1) t))
        + x7 (ix2 (0 : Fin 1) t) := by
  unfold k0_pay2
  simp only [addf_apply, mulf_apply, embProduct_apply, truncf_apply, rows_apply, column_apply, broadcastTo_1b_ab_apply,
    shapeCast_self]

/-- The box product at row `256 p + r`, channel `t`. -/
theorem box_apply (x2 : Vec Ideal S8x256x4 .f32) (x8 : Vec Ideal S4x256 .f32) (p : Fin 8) (r : Fin 256) (t : Fin 256) :
    k0_pay3 (F := Ideal) x2 x8 (ix2 (row p r) t) = ∑ k : Fin 4, x2 (ix3 p r k) * x8 (ix2 k t) := by
  unfold k0_pay3
  simp only [boxProduct_apply, truncf_apply, rows_apply, shapeCast_self]

/-- The keypoint block as rows: row `256 p + r`, entry `k` is the block at `(p, r, k)`. -/
theorem kpRows_apply (x3 : Vec Ideal S8x256x51 .f32) (p : Fin 8) (r : Fin 256) (k : Fin 51) :
    k0_pay4 (F := Ideal) x3 (ix2 (row p r) k) = x3 (ix3 p r k) := by
  unfold k0_pay4
  simp only [truncf_apply, rows_apply, shapeCast_self]

/-- The keypoint weights pass through unchanged. -/
theorem kpWeights_apply (x9 : Vec Ideal S51x256 .f32) (i : S51x256.Idx) : k0_pay5 (F := Ideal) x9 i = x9 i := by
  unfold k0_pay5
  simp only [truncf_apply, shapeCast_self]

/-- The stored value at `(p, r, t)` from the appearance half `a`, the box product `bx`, the keypoint rows `kr` and weights
    `kw`: `a` plus (box plus keypoint sum plus bias), times the token's mask entry. -/
theorem stored_apply (a bx : FVec Ideal S2048x256 .f32) (kr : FVec Ideal S2048x51 .bf16) (kw : FVec Ideal S51x256 .bf16)
    (x10 : Vec Ideal S1x256 .f32) (x4 : Vec Ideal S8x256 .f32) (p : Fin 8) (r : Fin 256) (t : Fin 256) :
    k0_pay1 (F := Ideal) a bx kr kw (constant (F := Ideal) S2048x256 .f32 0x00000000#32) x10 x4 (ix3 p r t)
      = (a (ix2 (row p r) t)
          + ((bx (ix2 (row p r) t) + ∑ k : Fin 51, kr (ix2 (row p r) k) * kw (ix2 k t)) + x10 (ix2 (0 : Fin 1) t)))
        * x4 (ix2 p r) := by
  unfold k0_pay1
  simp only [addf_apply, mulf_apply, kpProduct_apply, unrows_apply, broadcastTo_1b_ab_apply, shapeCast_self,
    trailingBroadcast_apply, trailingUnit_apply]

/-- What a tile stores at `(p, r, t)` is `tok` of its own blocks there. -/
theorem tile_apply (x0 : Vec Ideal S8x256x512 .f32) (x1 : Vec Ideal S8x256x1 .f32) (x2 : Vec Ideal S8x256x4 .f32)
    (x3 : Vec Ideal S8x256x51 .f32) (x4 : Vec Ideal S8x256 .f32) (x5 : Vec Ideal S512x256 .f32)
    (x6 x7 : Vec Ideal S1x256 .f32) (x8 : Vec Ideal S4x256 .f32) (x9 : Vec Ideal S51x256 .f32)
    (x10 : Vec Ideal S1x256 .f32) (p : Fin 8) (r : Fin 256) (t : Fin 256) :
    k0_pay1 (F := Ideal) (k0_pay2 x0 x5 x1 x6 x7) (k0_pay3 x2 x8) (k0_pay4 x3) (k0_pay5 x9)
        (constant (F := Ideal) S2048x256 .f32 0x00000000#32) x10 x4 (ix3 p r t)
      = tok (B := 8) (N := 256) x0 x1 x2 x3 x4 x5 x6 x7 x8 x9 x10 p r t := by
  rw [stored_apply, appearance_apply, box_apply]
  simp only [kpRows_apply, kpWeights_apply]
  rfl

end Cert.MaskedTokens.Tile

end
-- ==== Proof.Tiles.lean ====
/-
  From tiles to the whole array.

  The grid has `8 × 16` points; point `(i, j)` works on batch rows `8 i … 8 i + 7` and positions `256 j … 256 j + 255`.
  Every token-indexed array (embeddings, visibility, boxes, flattened keypoints, the mask as numbers) is cut into blocks
  along exactly those two axes, whole along its channel axis; the five weight and bias arrays are each one block, the same
  at every point; the output is cut like the token arrays. So what point `(i, j)` writes back at `(p, r, t)` — `tok` of
  its blocks (the tile module) — is `tok` of the whole arrays at `(8 i + p, 256 j + r, t)`, which is the entry of the
  output block it is written to: each point writes its block of ONE whole-array function, and the 128 blocks tile the
  `[64, 4096, 256]` output. The arrays meant are those the tile region finds: three arguments as launched and eight that
  the host prepares first (the keypoints' last two axes flattened, the mask converted to numbers, each weight matrix cut in
  two at the row where its input channel groups meet, each bias laid as one row); these are read back as terms of the
  arguments, which gives `result`.
-/
import proofs.«138796_j18021682774670_1_alg».proof.Proof.Gen.KernelIdeal.Value
import proofs.«138796_j18021682774670_1_alg».proof.Proof.Tile
import Idealize.ShloMosaic.Lib.StableHlo.Run
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.MaskedTokens

/-- `tok` depends on its arrays only through the entries of token `(b, n)` and of channel `t`: two families of arrays that
    agree there — a tile's blocks at `(p, r)` and the whole arrays at the tile's rows — give one value. -/
theorem tok_congr {B N B' N' : ℕ}
    {emb' : (⟨3, ![B', N', 512]⟩ : Shape).Idx → EReal} {vis' : (⟨3, ![B', N', 1]⟩ : Shape).Idx → EReal}
    {box' : (⟨3, ![B', N', 4]⟩ : Shape).Idx → EReal} {kp' : (⟨3, ![B', N', 51]⟩ : Shape).Idx → EReal}
    {msk' : (⟨2, ![B', N']⟩ : Shape).Idx → EReal}
    {wE' : (⟨2, ![512, 256]⟩ : Shape).Idx → EReal} {wV' bA' : (⟨2, ![1, 256]⟩ : Shape).Idx → EReal}
    {wB' : (⟨2, ![4, 256]⟩ : Shape).Idx → EReal} {wK' : (⟨2, ![51, 256]⟩ : Shape).Idx → EReal}
    {bS' : (⟨2, ![1, 256]⟩ : Shape).Idx → EReal}
    {emb : (⟨3, ![B, N, 512]⟩ : Shape).Idx → EReal} {vis : (⟨3, ![B, N, 1]⟩ : Shape).Idx → EReal}
    {box : (⟨3, ![B, N, 4]⟩ : Shape).Idx → EReal} {kp : (⟨3, ![B, N, 51]⟩ : Shape).Idx → EReal}
    {msk : (⟨2, ![B, N]⟩ : Shape).Idx → EReal}
    {wE : (⟨2, ![512, 256]⟩ : Shape).Idx → EReal} {wV bA : (⟨2, ![1, 256]⟩ : Shape).Idx → EReal}
    {wB : (⟨2, ![4, 256]⟩ : Shape).Idx → EReal} {wK : (⟨2, ![51, 256]⟩ : Shape).Idx → EReal}
    {bS : (⟨2, ![1, 256]⟩ : Shape).Idx → EReal}
    (p : Fin B') (r : Fin N') (b : Fin B) (n : Fin N) (t : Fin 256)
    (h0 : ∀ k, emb' (ix3 p r k) = emb (ix3 b n k)) (h1 : ∀ u, vis' (ix3 p r u) = vis (ix3 b n u))
    (h2 : ∀ k, box' (ix3 p r k) = box (ix3 b n k)) (h3 : ∀ k, kp' (ix3 p r k) = kp (ix3 b n k))
    (h4 : msk' (ix2 p r) = msk (ix2 b n))
    (h5 : ∀ k, wE' (ix2 k t) = wE (ix2 k t)) (h6 : ∀ u, wV' (ix2 u t) = wV (ix2 u t))
    (h7 : ∀ u, bA' (ix2 u t) = bA (ix2 u t)) (h8 : ∀ k, wB' (ix2 k t) = wB (ix2 k t))
    (h9 : ∀ k, wK' (ix2 k t) = wK (ix2 k t)) (h10 : ∀ u, bS' (ix2 u t) = bS (ix2 u t)) :
    tok emb' vis' box' kp' msk' wE' wV' bA' wB' wK' bS' p r t = tok emb vis box kp msk wE wV bA wB wK bS b n t := by
  unfold tok
  simp only [h0, h1, h2, h3, h4, h5, h6, h7, h8, h9, h10]

namespace Tiles

open Cert.KernelIdeal Cert.KernelIdeal.Gen Cert.MaskedTokens

variable (m : (ℓ : Loc nD τ sig) → Buf (Elt Ideal) ℓ) (ρ : Dev nD → PrngReg)

/-! ## The arrays the region finds, as terms of the arguments -/

/-- The keypoints as the region finds them: the last two axes `[17, 3]` flattened to `51`. -/
theorem entry_kp (c : Dev nD) : (V m c main_v0 : S64x4096x51.Idx → EReal)
    = shapeCast S64x4096x51 (m ((c : Thread nD τ).loc main_arg3)) shapeCasts_S64x4096x17x3_S64x4096x51 := by
  dsimp only [V, hostOps0]; after_results <;> rfl
/-- The mask as the region finds it: each bit as the number 0 or 1. -/
theorem entry_mask (c : Dev nD) : (V m c main_v1 : S64x4096.Idx → EReal)
    = uitofp (F := Ideal) .f32 (m ((c : Thread nD τ).loc main_arg4)) := by
  dsimp only [V, hostOps0]; after_results <;> rfl
/-- The embedding channels' weights: rows `0 … 511` of the appearance matrix. -/
theorem entry_embWeights (c : Dev nD) : (V m c main_v2 : S512x256.Idx → EReal)
    = extractStridedSlice S512x256 ![0, 0] (m ((c : Thread nD τ).loc main_arg5)) slices_S513x256_S512x256_0_0 := by
  dsimp only [V, hostOps0]; after_results <;> rfl
/-- The visibility channel's weights: row `512` of the appearance matrix. -/
theorem entry_visWeights (c : Dev nD) : (V m c main_v3 : S1x256.Idx → EReal)
    = extractStridedSlice S1x256 ![512, 0] (m ((c : Thread nD τ).loc main_arg5)) slices_S513x256_S1x256_512_0 := by
  dsimp only [V, hostOps0]; after_results <;> rfl
/-- The box channels' weights: rows `0 … 3` of the spatio-temporal matrix. -/
theorem entry_boxWeights (c : Dev nD) : (V m c main_v4 : S4x256.Idx → EReal)
    = extractStridedSlice S4x256 ![0, 0] (m ((c : Thread nD τ).loc main_arg7)) slices_S55x256_S4x256_0_0 := by
  dsimp only [V, hostOps0]; after_results <;> rfl
/-- The keypoint channels' weights: rows `4 … 54` of the spatio-temporal matrix. -/
theorem entry_kpWeights (c : Dev nD) : (V m c main_v5 : S51x256.Idx → EReal)
    = extractStridedSlice S51x256 ![4, 0] (m ((c : Thread nD τ).loc main_arg7)) slices_S55x256_S51x256_4_0 := by
  dsimp only [V, hostOps0]; after_results <;> rfl
/-- The appearance bias laid as one row. -/
theorem entry_appBias (c : Dev nD) : (V m c main_v6 : S1x256.Idx → EReal)
    = shapeCast S1x256 (m ((c : Thread nD τ).loc main_arg6)) shapeCasts_S256_S1x256 := by
  dsimp only [V, hostOps0]; after_results <;> rfl
/-- The spatio-temporal bias laid as one row. -/
theorem entry_stBias (c : Dev nD) : (V m c main_v7 : S1x256.Idx → EReal)
    = shapeCast S1x256 (m ((c : Thread nD τ).loc main_arg8)) shapeCasts_S256_S1x256 := by
  dsimp only [V, hostOps0]; after_results <;> rfl

/-! ## The index maps, decided over the 128 points

Each token-indexed window moves with the output window along the batch and position axes and stays at block 0 on its
channel axis; each weight or bias window stays at block `(0, 0)`; the output's block indices are below `8` and `16`, and
every such pair is some point's. -/

theorem idx_emb : ∀ t : Fin cfg0.N, win0_0.index t (0 : Fin 3) = win0_11.index t (0 : Fin 3)
    ∧ win0_0.index t (1 : Fin 3) = win0_11.index t (1 : Fin 3) ∧ win0_0.index t (2 : Fin 3) = 0 :=
  (by decide +kernel : ∀ t : Fin grid0.N, _)

theorem idx_vis : ∀ t : Fin cfg0.N, win0_1.index t (0 : Fin 3) = win0_11.index t (0 : Fin 3)
    ∧ win0_1.index t (1 : Fin 3) = win0_11.index t (1 : Fin 3) ∧ win0_1.index t (2 : Fin 3) = 0 :=
  (by decide +kernel : ∀ t : Fin grid0.N, _)

theorem idx_box : ∀ t : Fin cfg0.N, win0_2.index t (0 : Fin 3) = win0_11.index t (0 : Fin 3)
    ∧ win0_2.index t (1 : Fin 3) = win0_11.index t (1 : Fin 3) ∧ win0_2.index t (2 : Fin 3) = 0 :=
  (by decide +kernel : ∀ t : Fin grid0.N, _)

theorem idx_kp : ∀ t : Fin cfg0.N, win0_3.index t (0 : Fin 3) = win0_11.index t (0 : Fin 3)
    ∧ win0_3.index t (1 : Fin 3) = win0_11.index t (1 : Fin 3) ∧ win0_3.index t (2 : Fin 3) = 0 :=
  (by decide +kernel : ∀ t : Fin grid0.N, _)

theorem idx_mask : ∀ t : Fin cfg0.N, win0_4.index t (0 : Fin 2) = win0_11.index t (0 : Fin 3)
    ∧ win0_4.index t (1 : Fin 2) = win0_11.index t (1 : Fin 3) :=
  (by decide +kernel : ∀ t : Fin grid0.N, _)

theorem idx_embWeights : ∀ t : Fin cfg0.N, win0_5.index t (0 : Fin 2) = 0 ∧ win0_5.index t (1 : Fin 2) = 0 :=
  (by decide +kernel : ∀ t : Fin grid0.N, _)

theorem idx_visWeights : ∀ t : Fin cfg0.N, win0_6.index t (0 : Fin 2) = 0 ∧ win0_6.index t (1 : Fin 2) = 0 :=
  (by decide +kernel : ∀ t : Fin grid0.N, _)

theorem idx_appBias : ∀ t : Fin cfg0.N, win0_7.index t (0 : Fin 2) = 0 ∧ win0_7.index t (1 : Fin 2) = 0 :=
  (by decide +kernel : ∀ t : Fin grid0.N, _)

theorem idx_boxWeights : ∀ t : Fin cfg0.N, win0_8.index t (0 : Fin 2) = 0 ∧ win0_8.index t (1 : Fin 2) = 0 :=
  (by decide +kernel : ∀ t : Fin grid0.N, _)

theorem idx_kpWeights : ∀ t : Fin cfg0.N, win0_9.index t (0 : Fin 2) = 0 ∧ win0_9.index t (1 : Fin 2) = 0 :=
  (by decide +kernel : ∀ t : Fin grid0.N, _)

theorem idx_stBias : ∀ t : Fin cfg0.N, win0_10.index t (0 : Fin 2) = 0 ∧ win0_10.index t (1 : Fin 2) = 0 :=
  (by decide +kernel : ∀ t : Fin grid0.N, _)

theorem idx_out : ∀ t : Fin cfg0.N, win0_11.index t (0 : Fin 3) ≤ 7 ∧ win0_11.index t (1 : Fin 3) ≤ 15
    ∧ win0_11.index t (2 : Fin 3) = 0 :=
  (by decide +kernel : ∀ t : Fin grid0.N, _)

theorem idx_onto : ∀ (q0 : Fin 8) (q1 : Fin 16), ∃ t : Fin cfg0.N, win0_11.index t = ![q0.val, q1.val, 0] :=
  (by decide +kernel : ∀ (q0 : Fin 8) (q1 : Fin 16), ∃ t : Fin grid0.N, win0_11.index t = ![q0.val, q1.val, 0])

/-- The batch row of a tile's `p`-th row: `8 i + p`. -/
def batchRow (t : Fin cfg0.N) (p : Fin 8) : Fin 64 :=
  ⟨win0_11.index t (0 : Fin 3) * 8 + p.val, by have := (idx_out t).1; have := p.isLt; omega⟩
/-- The position of a tile's `r`-th position: `256 j + r`. -/
def position (t : Fin cfg0.N) (r : Fin 256) : Fin 4096 :=
  ⟨win0_11.index t (1 : Fin 3) * 256 + r.val, by have := (idx_out t).2.1; have := r.isLt; omega⟩

/-! ## Each input block as entries of its array -/

/-- Window 0's block at point `t`, entry `(p, r, k)`, is its array at the tile's rows: `(8 i + p, 256 j + r, k)`. -/
theorem emb_block (c : Dev nD) (t : Fin cfg0.N) (p : Fin 8) (r : Fin 256) (k : Fin 512) :
    (iblk m c 0 t : Vec Ideal S8x256x512 .f32) (ix3 p r k)
      = (V m c main_arg0 : S64x4096x512.Idx → EReal) (ix3 (batchRow t p) (position t r) k) := by
  obtain ⟨e0, e1, e2⟩ := idx_emb t
  unfold iblk
  rw [View.read_apply]
  show V m c main_arg0 _ = V m c main_arg0 _
  congr 1
  funext a; apply Fin.ext
  match a with
  | ⟨0, _⟩ => show win0_0.index t (0 : Fin 3) * 8 + 1 * p.val = win0_11.index t (0 : Fin 3) * 8 + p.val; omega
  | ⟨1, _⟩ => show win0_0.index t (1 : Fin 3) * 256 + 1 * r.val = win0_11.index t (1 : Fin 3) * 256 + r.val; omega
  | ⟨2, _⟩ => show win0_0.index t (2 : Fin 3) * 512 + 1 * k.val = k.val; omega

/-- Window 1's block at point `t`, entry `(p, r, k)`, is its array at the tile's rows: `(8 i + p, 256 j + r, k)`. -/
theorem vis_block (c : Dev nD) (t : Fin cfg0.N) (p : Fin 8) (r : Fin 256) (k : Fin 1) :
    (iblk m c 1 t : Vec Ideal S8x256x1 .f32) (ix3 p r k)
      = (V m c main_arg1 : S64x4096x1.Idx → EReal) (ix3 (batchRow t p) (position t r) k) := by
  obtain ⟨e0, e1, e2⟩ := idx_vis t
  unfold iblk
  rw [View.read_apply]
  show V m c main_arg1 _ = V m c main_arg1 _
  congr 1
  funext a; apply Fin.ext
  match a with
  | ⟨0, _⟩ => show win0_1.index t (0 : Fin 3) * 8 + 1 * p.val = win0_11.index t (0 : Fin 3) * 8 + p.val; omega
  | ⟨1, _⟩ => show win0_1.index t (1 : Fin 3) * 256 + 1 * r.val = win0_11.index t (1 : Fin 3) * 256 + r.val; omega
  | ⟨2, _⟩ => show win0_1.index t (2 : Fin 3) * 1 + 1 * k.val = k.val; omega

/-- Window 2's block at point `t`, entry `(p, r, k)`, is its array at the tile's rows: `(8 i + p, 256 j + r, k)`. -/
theorem box_block (c : Dev nD) (t : Fin cfg0.N) (p : Fin 8) (r : Fin 256) (k : Fin 4) :
    (iblk m c 2 t : Vec Ideal S8x256x4 .f32) (ix3 p r k)
      = (V m c main_arg2 : S64x4096x4.Idx → EReal) (ix3 (batchRow t p) (position t r) k) := by
  obtain ⟨e0, e1, e2⟩ := idx_box t
  unfold iblk
  rw [View.read_apply]
  show V m c main_arg2 _ = V m c main_arg2 _
  congr 1
  funext a; apply Fin.ext
  match a with
  | ⟨0, _⟩ => show win0_2.index t (0 : Fin 3) * 8 + 1 * p.val = win0_11.index t (0 : Fin 3) * 8 + p.val; omega
  | ⟨1, _⟩ => show win0_2.index t (1 : Fin 3) * 256 + 1 * r.val = win0_11.index t (1 : Fin 3) * 256 + r.val; omega
  | ⟨2, _⟩ => show win0_2.index t (2 : Fin 3) * 4 + 1 * k.val = k.val; omega

/-- Window 3's block at point `t`, entry `(p, r, k)`, is its array at the tile's rows: `(8 i + p, 256 j + r, k)`. -/
theorem kp_block (c : Dev nD) (t : Fin cfg0.N) (p : Fin 8) (r : Fin 256) (k : Fin 51) :
    (iblk m c 3 t : Vec Ideal S8x256x51 .f32) (ix3 p r k)
      = (V m c main_v0 : S64x4096x51.Idx → EReal) (ix3 (batchRow t p) (position t r) k) := by
  obtain ⟨e0, e1, e2⟩ := idx_kp t
  unfold iblk
  rw [View.read_apply]
  show V m c main_v0 _ = V m c main_v0 _
  congr 1
  funext a; apply Fin.ext
  match a with
  | ⟨0, _⟩ => show win0_3.index t (0 : Fin 3) * 8 + 1 * p.val = win0_11.index t (0 : Fin 3) * 8 + p.val; omega
  | ⟨1, _⟩ => show win0_3.index t (1 : Fin 3) * 256 + 1 * r.val = win0_11.index t (1 : Fin 3) * 256 + r.val; omega
  | ⟨2, _⟩ => show win0_3.index t (2 : Fin 3) * 51 + 1 * k.val = k.val; omega

/-- Window 4's block at point `t`, entry `(p, r)`, is its array at the tile's rows: `(8 i + p, 256 j + r)`. -/
theorem mask_block (c : Dev nD) (t : Fin cfg0.N) (p : Fin 8) (r : Fin 256) :
    (iblk m c 4 t : Vec Ideal S8x256 .f32) (ix2 p r)
      = (V m c main_v1 : S64x4096.Idx → EReal) (ix2 (batchRow t p) (position t r)) := by
  obtain ⟨e0, e1⟩ := idx_mask t
  unfold iblk
  rw [View.read_apply]
  show V m c main_v1 _ = V m c main_v1 _
  congr 1
  funext a; apply Fin.ext
  match a with
  | ⟨0, _⟩ => show win0_4.index t (0 : Fin 2) * 8 + 1 * p.val = win0_11.index t (0 : Fin 3) * 8 + p.val; omega
  | ⟨1, _⟩ => show win0_4.index t (1 : Fin 2) * 256 + 1 * r.val = win0_11.index t (1 : Fin 3) * 256 + r.val; omega

/-- Window 5's block is its whole array at every point: entry `(k, u)` is the array's. -/
theorem embWeights_block (c : Dev nD) (t : Fin cfg0.N) (k : Fin 512) (u : Fin 256) :
    (iblk m c 5 t : Vec Ideal S512x256 .f32) (ix2 k u) = (V m c main_v2 : S512x256.Idx → EReal) (ix2 k u) := by
  obtain ⟨e0, e1⟩ := idx_embWeights t
  unfold iblk
  rw [View.read_apply]
  show V m c main_v2 _ = V m c main_v2 _
  congr 1
  funext a; apply Fin.ext
  match a with
  | ⟨0, _⟩ => show win0_5.index t (0 : Fin 2) * 512 + 1 * k.val = k.val; omega
  | ⟨1, _⟩ => show win0_5.index t (1 : Fin 2) * 256 + 1 * u.val = u.val; omega

/-- Window 6's block is its whole array at every point: entry `(k, u)` is the array's. -/
theorem visWeights_block (c : Dev nD) (t : Fin cfg0.N) (k : Fin 1) (u : Fin 256) :
    (iblk m c 6 t : Vec Ideal S1x256 .f32) (ix2 k u) = (V m c main_v3 : S1x256.Idx → EReal) (ix2 k u) := by
  obtain ⟨e0, e1⟩ := idx_visWeights t
  unfold iblk
  rw [View.read_apply]
  show V m c main_v3 _ = V m c main_v3 _
  congr 1
  funext a; apply Fin.ext
  match a with
  | ⟨0, _⟩ => show win0_6.index t (0 : Fin 2) * 1 + 1 * k.val = k.val; omega
  | ⟨1, _⟩ => show win0_6.index t (1 : Fin 2) * 256 + 1 * u.val = u.val; omega

/-- Window 7's block is its whole array at every point: entry `(k, u)` is the array's. -/
theorem appBias_block (c : Dev nD) (t : Fin cfg0.N) (k : Fin 1) (u : Fin 256) :
    (iblk m c 7 t : Vec Ideal S1x256 .f32) (ix2 k u) = (V m c main_v6 : S1x256.Idx → EReal) (ix2 k u) := by
  obtain ⟨e0, e1⟩ := idx_appBias t
  unfold iblk
  rw [View.read_apply]
  show V m c main_v6 _ = V m c main_v6 _
  congr 1
  funext a; apply Fin.ext
  match a with
  | ⟨0, _⟩ => show win0_7.index t (0 : Fin 2) * 1 + 1 * k.val = k.val; omega
  | ⟨1, _⟩ => show win0_7.index t (1 : Fin 2) * 256 + 1 * u.val = u.val; omega

/-- Window 8's block is its whole array at every point: entry `(k, u)` is the array's. -/
theorem boxWeights_block (c : Dev nD) (t : Fin cfg0.N) (k : Fin 4) (u : Fin 256) :
    (iblk m c 8 t : Vec Ideal S4x256 .f32) (ix2 k u) = (V m c main_v4 : S4x256.Idx → EReal) (ix2 k u) := by
  obtain ⟨e0, e1⟩ := idx_boxWeights t
  unfold iblk
  rw [View.read_apply]
  show V m c main_v4 _ = V m c main_v4 _
  congr 1
  funext a; apply Fin.ext
  match a with
  | ⟨0, _⟩ => show win0_8.index t (0 : Fin 2) * 4 + 1 * k.val = k.val; omega
  | ⟨1, _⟩ => show win0_8.index t (1 : Fin 2) * 256 + 1 * u.val = u.val; omega

/-- Window 9's block is its whole array at every point: entry `(k, u)` is the array's. -/
theorem kpWeights_block (c : Dev nD) (t : Fin cfg0.N) (k : Fin 51) (u : Fin 256) :
    (iblk m c 9 t : Vec Ideal S51x256 .f32) (ix2 k u) = (V m c main_v5 : S51x256.Idx → EReal) (ix2 k u) := by
  obtain ⟨e0, e1⟩ := idx_kpWeights t
  unfold iblk
  rw [View.read_apply]
  show V m c main_v5 _ = V m c main_v5 _
  congr 1
  funext a; apply Fin.ext
  match a with
  | ⟨0, _⟩ => show win0_9.index t (0 : Fin 2) * 51 + 1 * k.val = k.val; omega
  | ⟨1, _⟩ => show win0_9.index t (1 : Fin 2) * 256 + 1 * u.val = u.val; omega

/-- Window 10's block is its whole array at every point: entry `(k, u)` is the array's. -/
theorem stBias_block (c : Dev nD) (t : Fin cfg0.N) (k : Fin 1) (u : Fin 256) :
    (iblk m c 10 t : Vec Ideal S1x256 .f32) (ix2 k u) = (V m c main_v7 : S1x256.Idx → EReal) (ix2 k u) := by
  obtain ⟨e0, e1⟩ := idx_stBias t
  unfold iblk
  rw [View.read_apply]
  show V m c main_v7 _ = V m c main_v7 _
  congr 1
  funext a; apply Fin.ext
  match a with
  | ⟨0, _⟩ => show win0_10.index t (0 : Fin 2) * 1 + 1 * k.val = k.val; omega
  | ⟨1, _⟩ => show win0_10.index t (1 : Fin 2) * 256 + 1 * u.val = u.val; omega

/-! ## What a point writes back, and the whole array -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The whole output as ONE function of the arrays the region finds: `tok` at every token and channel. -/
def tiled (c : Dev nD) : Buf (Elt Ideal) ((c : Thread nD τ).loc main_v8) := fun i =>
  tok (B := 64) (N := 4096) (V m c main_arg0) (V m c main_arg1) (V m c main_arg2) (V m c main_v0) (V m c main_v1)
    (V m c main_v2) (V m c main_v3) (V m c main_v6) (V m c main_v4) (V m c main_v5) (V m c main_v7) (i 0) (i 1) (i 2)

/-- An entry `(p, r, u)` of point `t`'s output block sits in the array at `(8 i + p, 256 j + r, u)`. -/
theorem out_emb (t : Fin cfg0.N) (p : Fin 8) (r : Fin 256) (u : Fin 256) :
    ((cfg0.win 11).blk t).view.emb (ix3 p r u) = (ix3 (batchRow t p) (position t r) u : S64x4096x256.Idx) := by
  obtain ⟨-, -, e2⟩ := idx_out t
  funext a; apply Fin.ext
  match a with
  | ⟨0, _⟩ => show win0_11.index t (0 : Fin 3) * 8 + 1 * p.val = win0_11.index t (0 : Fin 3) * 8 + p.val; omega
  | ⟨1, _⟩ => show win0_11.index t (1 : Fin 3) * 256 + 1 * r.val = win0_11.index t (1 : Fin 3) * 256 + r.val; omega
  | ⟨2, _⟩ => show win0_11.index t (2 : Fin 3) * 256 + 1 * u.val = u.val; omega

/-- WHAT POINT `t` WRITES BACK is block `t` of `tiled`. -/
theorem flushed_eq (c : Dev nD) (t : Fin cfg0.N) :
    (dats m 0 c).flushed 11 t = ((cfg0.win 11).blk t).view.read (Elt Ideal) (tiled m c) := by
  rw [Cert.KernelIdeal.Value.flushed11]
  unfold out0_11
  rw [View.canon_unit_zero zeros3]
  simp only [View.ld_unit_zero (S := S8x256x512) zeros3, View.ld_unit_zero (S := S8x256x1) zeros3,
    View.ld_unit_zero (S := S8x256x4) zeros3, View.ld_unit_zero (S := S8x256x51) zeros3,
    View.ld_unit_zero (S := S8x256) zeros2, View.ld_unit_zero (S := S512x256) zeros2,
    View.ld_unit_zero (S := S1x256) zeros2, View.ld_unit_zero (S := S4x256) zeros2,
    View.ld_unit_zero (S := S51x256) zeros2]
  funext y
  obtain ⟨p, r, u, rfl⟩ : ∃ (p : Fin 8) (r : Fin 256) (u : Fin 256), y = ix3 p r u := ⟨y 0, y 1, y 2, eq_ix3 y⟩
  show k0_pay1 (F := Ideal) (k0_pay2 (iblk m c 0 t) (iblk m c 5 t) (iblk m c 1 t) (iblk m c 6 t) (iblk m c 7 t))
      (k0_pay3 (iblk m c 2 t) (iblk m c 8 t)) (k0_pay4 (iblk m c 3 t)) (k0_pay5 (iblk m c 9 t))
      (constant (F := Ideal) S2048x256 .f32 0x00000000#32) (iblk m c 10 t) (iblk m c 4 t) (ix3 p r u)
    = tiled m c (((cfg0.win 11).blk t).view.emb (ix3 p r u))
  refine (Tile.tile_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p r u).trans ?_
  rw [out_emb]
  show _ = tok (B := 64) (N := 4096) (V m c main_arg0) (V m c main_arg1) (V m c main_arg2) (V m c main_v0) (V m c main_v1)
    (V m c main_v2) (V m c main_v3) (V m c main_v6) (V m c main_v4) (V m c main_v5) (V m c main_v7)
    (batchRow t p) (position t r) u
  exact tok_congr p r (batchRow t p) (position t r) u
    (fun k => emb_block m c t p r k) (fun k => vis_block m c t p r k) (fun k => box_block m c t p r k)
    (fun k => kp_block m c t p r k) (mask_block m c t p r)
    (fun k => embWeights_block m c t k u) (fun k => visWeights_block m c t k u) (fun k => appBias_block m c t k u)
    (fun k => boxWeights_block m c t k u) (fun k => kpWeights_block m c t k u) (fun k => stBias_block m c t k u)

/-- An index of the output is in point `t`'s block iff each coordinate is in the block's range on its axis. -/
theorem mem_block (t : Fin cfg0.N) (i : S64x4096x256.Idx) :
    i ∈ ((cfg0.win 11).blk t).view.set ↔ ∀ a : Fin 3, win0_11.index t a * S8x256x256.size a ≤ (i a).val
      ∧ (i a).val < win0_11.index t a * S8x256x256.size a + S8x256x256.size a := by
  show i ∈ ((View.whole main_v8).slice (win0_11.rect t)).set ↔ _
  rw [View.set_slice_whole, Rect.mem_set_unit]
  exact Iff.rfl

/-- Every index of the output is in SOME point's block: the point whose block indices are `(i₀ / 8, i₁ / 256)`. -/
theorem covered (i : S64x4096x256.Idx) :
    ∃ t : Fin cfg0.N, (cfg0.win 11).flush t = true ∧ i ∈ ((cfg0.win 11).blk t).view.set := by
  have hi0 : (i 0).val < 64 := (i 0).isLt
  have hi1 : (i 1).val < 4096 := (i 1).isLt
  have hi2 : (i 2).val < 256 := (i 2).isLt
  obtain ⟨t, ht⟩ := idx_onto ⟨(i 0).val / 8, by omega⟩ ⟨(i 1).val / 256, by omega⟩
  have q0 : win0_11.index t (0 : Fin 3) = (i 0).val / 8 := congrFun ht 0
  have q1 : win0_11.index t (1 : Fin 3) = (i 1).val / 256 := congrFun ht 1
  have q2 : win0_11.index t (2 : Fin 3) = 0 := congrFun ht 2
  refine ⟨t, flush0_11 t, ?_⟩
  rw [mem_block]
  intro a
  match a with
  | ⟨0, _⟩ => show win0_11.index t (0 : Fin 3) * 8 ≤ (i 0).val ∧ (i 0).val < win0_11.index t (0 : Fin 3) * 8 + 8; omega
  | ⟨1, _⟩ => show win0_11.index t (1 : Fin 3) * 256 ≤ (i 1).val ∧ (i 1).val < win0_11.index t (1 : Fin 3) * 256 + 256; omega
  | ⟨2, _⟩ => show win0_11.index t (2 : Fin 3) * 256 ≤ (i 2).val ∧ (i 2).val < win0_11.index t (2 : Fin 3) * 256 + 256; omega

/-- THE ARRAY after the run is `tiled`: every point writes its block of it and the blocks cover the array. -/
theorem final (c : Dev nD) : (dats m 0 c).arrAt 11 cfg0.N = tiled m c :=
  (dats m 0 c).arrAt_eq_of_cover 11 (tiled m c) (fun t _ => flushed_eq m c t) covered

/-- `tiled` in terms of the arguments: the arrays the region finds replaced by what the host made them. -/
theorem tiled_eq (c : Dev nD) : tiled m c
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        shapeCasts_S64x4096x17x3_S64x4096x51 slices_S513x256_S512x256_0_0 slices_S513x256_S1x256_512_0 slices_S55x256_S4x256_0_0 slices_S55x256_S51x256_4_0 shapeCasts_S256_S1x256 := by
  unfold tiled result
  rw [V_main_arg0, V_main_arg1, V_main_arg2, entry_kp, entry_mask, entry_embWeights, entry_visWeights, entry_appBias,
    entry_boxWeights, entry_kpWeights, entry_stBias]
  rfl

/-! ## The run, read -/

/-- Every weakly fair execution of the tiled program terminates with the result array at `result` of the arguments, the
    arguments unchanged. -/
theorem run : θ_run defs (onTc (τ := τ) (main (F := Ideal))) ⟨m, fun _ => 0, ρ⟩ fun r => ∀ c : Dev nD,
      r.2.mem ((c : Thread nD τ).loc main_v8) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        shapeCasts_S64x4096x17x3_S64x4096x51 slices_S513x256_S512x256_0_0 slices_S513x256_S1x256_512_0 slices_S55x256_S4x256_0_0 slices_S55x256_S51x256_4_0 shapeCasts_S256_S1x256
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (tiled_eq m c)), (h c).2⟩)
    (Cert.KernelIdeal.Value.run_blocks m ρ)

end Tiles

end Cert.MaskedTokens

end
-- ==== Proof.ReferenceTokens.lean ====
/-
  The reference program, read at one index, is the masked token.

  At batch row `b`, position `n` and channel `t` the reference computes

      where(mask[b,n], (Σ_{k<513} cat(emb, vis)[b,n,k]·Wa[k,t] + ba[t]) + (Σ_{k<55} cat(box, kp)[b,n,k]·Ws[k,t] + bs[t]), 0)

  on the extended reals. The sum over the 513 appearance channels is its first 512 terms plus its last one, and a
  concatenation read below the joint is its first piece, at the joint its second: the first 512 terms read the embedding
  against rows `0 … 511` of `Wa`, the last reads the visibility channel against row `512`. In the same way the sum over the 55
  spatio-temporal channels is its first 4 terms (the box, against rows `0 … 3` of `Ws`) plus its last 51 (the flattened
  keypoints, against rows `4 … 54`). A bias broadcast along the batch rows and positions reads its entry `t`. Finally, choosing
  between a value `v` and `0` by a bit is multiplying `v` by the bit read as the number 0 or 1. Only the regrouping of the
  two sums is used: the additions come in the same order on both sides.
-/
import proofs.«138796_j18021682774670_1_alg».proof.Proof.Gen.ReferenceIdeal.Read
import proofs.«138796_j18021682774670_1_alg».proof.Proof.Tokens
import Idealize.ShloMosaic.Lib.ValueLayout
import Idealize.ShloMosaic.Lib.Pipeline.Value

noncomputable section
open scoped BigOperators
open Idealize.ShloMosaic Idealize.ShloMosaic.ValueIdx Cert.MaskedTokens
namespace Cert.MaskedTokens

open Cert.ReferenceIdeal Cert.ReferenceIdeal.Gen Cert.ReferenceIdeal.Read

/-! ## The two sums, split where their operands are joined -/

/-- A sum of 513 terms is the sum of its first 512 plus its last. -/
theorem sum_split_last (f : Fin 513 → EReal) :
    ∑ k : Fin 513, f k = (∑ k : Fin 512, f k.castSucc) + f (Fin.last 512) :=
  Fin.sum_univ_castSucc f

/-- A sum of 55 terms is the sum of its first 4 plus the sum of its last 51. -/
theorem sum_split_four (f : Fin 55 → EReal) :
    ∑ k : Fin 55, f k = (∑ k : Fin 4, f (Fin.castAdd 51 k)) + ∑ k : Fin 51, f (Fin.natAdd 4 k) :=
  Fin.sum_univ_add (a := 4) (b := 51) f

/-! ## The mask, the zero and the biases at an index -/

/-- The mask given a unit channel axis and broadcast along the 256 channels reads, at `(b, n, t)`, the mask at `(b, n)`. -/
theorem mask_apply (x4 : (⟨2, ![64, 4096]⟩ : Shape).Idx → BitVec 1) (b : Fin 64) (n : Fin 4096) (t : Fin 256) :
    val_main_call0_v0 (F := Ideal) x4 (ix3 b n t) = x4 (ix2 b n) := by
  rw [val_main_call0_v0_apply, val_main_v11_apply]
  exact congrArg x4 (funext fun a => by match a with | ⟨0, _⟩ => rfl | ⟨1, _⟩ => rfl)

/-- The constant the masked-out entries take, broadcast to the result's shape, is the extended real `0` at every index. -/
theorem zero_apply (i : (⟨3, ![64, 4096, 256]⟩ : Shape).Idx) :
    val_main_call0_v1 (F := Ideal) i = 0 := by
  rw [val_main_call0_v1_apply, val_main_cst_apply]
  exact Ideal.ofBits_zero_f32

/-- The appearance bias broadcast along batch rows and positions reads, at `(b, n, t)`, its entry `t`: the entry `(0, t)` of
    the bias laid as one row. -/
theorem biasA_apply (x6 : (⟨1, ![256]⟩ : Shape).Idx → EReal) (hb : (⟨1, ![256]⟩ : Shape).ShapeCasts ⟨2, ![1, 256]⟩)
    (b : Fin 64) (n : Fin 4096) (t : Fin 256) :
    val_main_v3 (F := Ideal) x6 (ix3 b n t) = shapeCast ⟨2, ![1, 256]⟩ x6 hb (ix2 (0 : Fin 1) t) := by
  rw [val_main_v3_apply, val_main_v2_apply, shapeCast_a_1a_apply]
  exact congrArg x6 (funext fun a => by match a with | ⟨0, _⟩ => rfl)

/-- The spatio-temporal bias broadcast along batch rows and positions reads, at `(b, n, t)`, its entry `t`: the entry
    `(0, t)` of the bias laid as one row. -/
theorem biasS_apply (x8 : (⟨1, ![256]⟩ : Shape).Idx → EReal) (hb : (⟨1, ![256]⟩ : Shape).ShapeCasts ⟨2, ![1, 256]⟩)
    (b : Fin 64) (n : Fin 4096) (t : Fin 256) :
    val_main_v9 (F := Ideal) x8 (ix3 b n t) = shapeCast ⟨2, ![1, 256]⟩ x8 hb (ix2 (0 : Fin 1) t) := by
  rw [val_main_v9_apply, val_main_v8_apply, shapeCast_a_1a_apply]
  exact congrArg x8 (funext fun a => by match a with | ⟨0, _⟩ => rfl)

/-! ## The two concatenations at an index on either side of the joint -/

/-- The embedding joined with the visibility channel reads, at channel `k < 512` of `(b, n)`, the embedding at `(b, n, k)`. -/
theorem cat_emb_apply (x0 : (⟨3, ![64, 4096, 512]⟩ : Shape).Idx → EReal) (x1 : (⟨3, ![64, 4096, 1]⟩ : Shape).Idx → EReal)
    (b : Fin 64) (n : Fin 4096) (t : Fin 256) (k : Fin 512) :
    val_main_v0 (F := Ideal) x0 x1 (lidx_main_v1 (ix3 b n t) k.castSucc) = x0 (ix3 b n k) := by
  unfold val_main_v0
  refine concatenate_pair_apply_left (t := S64x4096x513) (2 : Fin 3) x0 x1
    concatenates_S64x4096x512_S64x4096x1_S64x4096x513_d2 (lidx_main_v1 (ix3 b n t) k.castSucc) rfl (ix3 b n k) ?_
  intro a
  match a with
  | ⟨0, _⟩ => rfl
  | ⟨1, _⟩ => rfl
  | ⟨2, _⟩ => rfl

/-- The embedding joined with the visibility channel reads, at its last channel `512` of `(b, n)`, the visibility at
    `(b, n, 0)`: `0 + 512 = 512`. -/
theorem cat_vis_apply (x0 : (⟨3, ![64, 4096, 512]⟩ : Shape).Idx → EReal) (x1 : (⟨3, ![64, 4096, 1]⟩ : Shape).Idx → EReal)
    (b : Fin 64) (n : Fin 4096) (t : Fin 256) :
    val_main_v0 (F := Ideal) x0 x1 (lidx_main_v1 (ix3 b n t) (Fin.last 512)) = x1 (ix3 b n (0 : Fin 1)) := by
  unfold val_main_v0
  refine concatenate_pair_apply_right (t := S64x4096x513) (2 : Fin 3) x0 x1
    concatenates_S64x4096x512_S64x4096x1_S64x4096x513_d2 (lidx_main_v1 (ix3 b n t) (Fin.last 512)) rfl rfl
    (ix3 b n (0 : Fin 1)) ?_ rfl
  intro a ha
  match a, ha with
  | ⟨0, _⟩, _ => rfl
  | ⟨1, _⟩, _ => rfl
  | ⟨2, _⟩, ha => exact absurd rfl ha

/-- The box joined with the flattened keypoints reads, at channel `k < 4` of `(b, n)`, the box at `(b, n, k)`. -/
theorem cat_box_apply (x2 : (⟨3, ![64, 4096, 4]⟩ : Shape).Idx → EReal) (x3 : (⟨4, ![64, 4096, 17, 3]⟩ : Shape).Idx → EReal)
    (b : Fin 64) (n : Fin 4096) (t : Fin 256) (k : Fin 4) :
    val_main_v6 (F := Ideal) x2 x3 (lidx_main_v7 (ix3 b n t) (Fin.castAdd 51 k)) = x2 (ix3 b n k) := by
  unfold val_main_v6
  refine concatenate_pair_apply_left (t := S64x4096x55) (2 : Fin 3) x2 (val_main_v5 (F := Ideal) x3)
    concatenates_S64x4096x4_S64x4096x51_S64x4096x55_d2 (lidx_main_v7 (ix3 b n t) (Fin.castAdd 51 k)) rfl (ix3 b n k) ?_
  intro a
  match a with
  | ⟨0, _⟩ => rfl
  | ⟨1, _⟩ => rfl
  | ⟨2, _⟩ => rfl

/-- The box joined with the flattened keypoints reads, at channel `4 + k` of `(b, n)` with `k < 51`, the flattened
    keypoints at `(b, n, k)`. -/
theorem cat_kp_apply (x2 : (⟨3, ![64, 4096, 4]⟩ : Shape).Idx → EReal) (x3 : (⟨4, ![64, 4096, 17, 3]⟩ : Shape).Idx → EReal)
    (hkp : (⟨4, ![64, 4096, 17, 3]⟩ : Shape).ShapeCasts ⟨3, ![64, 4096, 51]⟩)
    (b : Fin 64) (n : Fin 4096) (t : Fin 256) (k : Fin 51) :
    val_main_v6 (F := Ideal) x2 x3 (lidx_main_v7 (ix3 b n t) (Fin.natAdd 4 k))
      = shapeCast ⟨3, ![64, 4096, 51]⟩ x3 hkp (ix3 b n k) := by
  unfold val_main_v6
  refine concatenate_pair_apply_right (t := S64x4096x55) (2 : Fin 3) x2 (val_main_v5 (F := Ideal) x3)
    concatenates_S64x4096x4_S64x4096x51_S64x4096x55_d2 (lidx_main_v7 (ix3 b n t) (Fin.natAdd 4 k)) rfl rfl
    (ix3 b n k) ?_ (Nat.add_comm _ _)
  intro a ha
  match a, ha with
  | ⟨0, _⟩, _ => rfl
  | ⟨1, _⟩, _ => rfl
  | ⟨2, _⟩, ha => exact absurd rfl ha

/-! ## The two projections at an index -/

/-- The appearance projection at `(b, n, t)`: the 513-term contraction is the embedding's 512 channels against rows
    `0 … 511` of the weight matrix, plus the visibility channel against row `512`. -/
theorem appearance_apply (x0 : (⟨3, ![64, 4096, 512]⟩ : Shape).Idx → EReal) (x1 : (⟨3, ![64, 4096, 1]⟩ : Shape).Idx → EReal)
    (x5 : (⟨2, ![513, 256]⟩ : Shape).Idx → EReal)
    (hE : (⟨2, ![513, 256]⟩ : Shape).Slices ![0, 0] ⟨2, ![512, 256]⟩)
    (hV : (⟨2, ![513, 256]⟩ : Shape).Slices ![512, 0] ⟨2, ![1, 256]⟩)
    (b : Fin 64) (n : Fin 4096) (t : Fin 256) :
    val_main_v1 (F := Ideal) x0 x1 x5 (ix3 b n t)
      = (∑ k : Fin 512, x0 (ix3 b n k) * extractStridedSlice ⟨2, ![512, 256]⟩ ![0, 0] x5 hE (ix2 k t))
        + x1 (ix3 b n (0 : Fin 1)) * extractStridedSlice ⟨2, ![1, 256]⟩ ![512, 0] x5 hV (ix2 (0 : Fin 1) t) := by
  rw [val_main_v1_apply, sum_split_last]
  refine congrArg₂ (· + ·) (Finset.sum_congr rfl fun k _ => ?_) ?_
  · rw [cat_emb_apply, slice2_axis0_apply 0 x5 hE k t k.castSucc (Nat.zero_add _).symm]
    exact congrArg (fun j => x0 (ix3 b n k) * x5 j)
      (funext fun a => by match a with | ⟨0, _⟩ => rfl | ⟨1, _⟩ => rfl)
  · rw [cat_vis_apply, slice2_axis0_apply 512 x5 hV (0 : Fin 1) t (Fin.last 512) rfl]
    exact congrArg (fun j => x1 (ix3 b n (0 : Fin 1)) * x5 j)
      (funext fun a => by match a with | ⟨0, _⟩ => rfl | ⟨1, _⟩ => rfl)

/-- The spatio-temporal projection at `(b, n, t)`: the 55-term contraction is the box's 4 channels against rows `0 … 3` of
    the weight matrix, plus the 51 flattened keypoint channels against rows `4 … 54`. -/
theorem spatial_apply (x2 : (⟨3, ![64, 4096, 4]⟩ : Shape).Idx → EReal) (x3 : (⟨4, ![64, 4096, 17, 3]⟩ : Shape).Idx → EReal)
    (x7 : (⟨2, ![55, 256]⟩ : Shape).Idx → EReal)
    (hkp : (⟨4, ![64, 4096, 17, 3]⟩ : Shape).ShapeCasts ⟨3, ![64, 4096, 51]⟩)
    (hB : (⟨2, ![55, 256]⟩ : Shape).Slices ![0, 0] ⟨2, ![4, 256]⟩)
    (hK : (⟨2, ![55, 256]⟩ : Shape).Slices ![4, 0] ⟨2, ![51, 256]⟩)
    (b : Fin 64) (n : Fin 4096) (t : Fin 256) :
    val_main_v7 (F := Ideal) x2 x3 x7 (ix3 b n t)
      = (∑ k : Fin 4, x2 (ix3 b n k) * extractStridedSlice ⟨2, ![4, 256]⟩ ![0, 0] x7 hB (ix2 k t))
        + ∑ k : Fin 51, shapeCast ⟨3, ![64, 4096, 51]⟩ x3 hkp (ix3 b n k)
            * extractStridedSlice ⟨2, ![51, 256]⟩ ![4, 0] x7 hK (ix2 k t) := by
  rw [val_main_v7_apply, sum_split_four]
  refine congrArg₂ (· + ·) (Finset.sum_congr rfl fun k _ => ?_) (Finset.sum_congr rfl fun k _ => ?_)
  · rw [cat_box_apply, slice2_axis0_apply 0 x7 hB k t (Fin.castAdd 51 k) (Nat.zero_add _).symm]
    exact congrArg (fun j => x2 (ix3 b n k) * x7 j)
      (funext fun a => by match a with | ⟨0, _⟩ => rfl | ⟨1, _⟩ => rfl)
  · rw [cat_kp_apply x2 x3 hkp, slice2_axis0_apply 4 x7 hK k t (Fin.natAdd 4 k) rfl]
    exact congrArg (fun j => shapeCast ⟨3, ![64, 4096, 51]⟩ x3 hkp (ix3 b n k) * x7 j)
      (funext fun a => by match a with | ⟨0, _⟩ => rfl | ⟨1, _⟩ => rfl)

/-! ## The mask as a factor, and the whole result -/

/-- Choosing between `v` and `0` by a bit is `v` times the bit read as a number: `v · 1 = v` and `v · 0 = 0` on the
    extended reals. -/
theorem select_mask (c : BitVec 1) (v : EReal) :
    Scalar.select c v 0 = v * (((c.toNat : ℝ)) : EReal) := by
  by_cases h : c = 1#1
  · subst h
    rw [select_one]
    show v = v * (((1 : ℕ) : ℝ) : EReal)
    rw [Nat.cast_one, EReal.coe_one, mul_one]
  · have h0 := eq_zero_of_ne_one h
    subst h0
    rw [select_zero]
    show (0 : EReal) = v * (((0 : ℕ) : ℝ) : EReal)
    rw [Nat.cast_zero, EReal.coe_zero, mul_zero]

/-- The reference's result array is the masked token of the nine arguments: at every `(b, n, t)` the two projections
    with their biases, added in the reference's own order, kept where the mask's bit is 1 and `0` elsewhere. -/
theorem stage_eq
    (x0 : (⟨3, ![64, 4096, 512]⟩ : Shape).Idx → EReal) (x1 : (⟨3, ![64, 4096, 1]⟩ : Shape).Idx → EReal)
    (x2 : (⟨3, ![64, 4096, 4]⟩ : Shape).Idx → EReal) (x3 : (⟨4, ![64, 4096, 17, 3]⟩ : Shape).Idx → EReal)
    (x4 : (⟨2, ![64, 4096]⟩ : Shape).Idx → BitVec 1)
    (x5 : (⟨2, ![513, 256]⟩ : Shape).Idx → EReal) (x6 : (⟨1, ![256]⟩ : Shape).Idx → EReal)
    (x7 : (⟨2, ![55, 256]⟩ : Shape).Idx → EReal) (x8 : (⟨1, ![256]⟩ : Shape).Idx → EReal)
    (hkp : (⟨4, ![64, 4096, 17, 3]⟩ : Shape).ShapeCasts ⟨3, ![64, 4096, 51]⟩)
    (hE : (⟨2, ![513, 256]⟩ : Shape).Slices ![0, 0] ⟨2, ![512, 256]⟩)
    (hV : (⟨2, ![513, 256]⟩ : Shape).Slices ![512, 0] ⟨2, ![1, 256]⟩)
    (hB : (⟨2, ![55, 256]⟩ : Shape).Slices ![0, 0] ⟨2, ![4, 256]⟩)
    (hK : (⟨2, ![55, 256]⟩ : Shape).Slices ![4, 0] ⟨2, ![51, 256]⟩)
    (hb : (⟨1, ![256]⟩ : Shape).ShapeCasts ⟨2, ![1, 256]⟩) :
    Cert.ReferenceIdeal.Read.val_main_v13 (F := Ideal) x0 x1 x2 x3 x4 x5 x6 x7 x8
      = result x0 x1 x2 x3 x4 x5 x6 x7 x8 hkp hE hV hB hK hb := by
  funext i
  obtain ⟨b, n, t, rfl⟩ : ∃ (b : Fin 64) (n : Fin 4096) (t : Fin 256), i = ix3 b n t :=
    ⟨i 0, i 1, i 2, eq_ix3 i⟩
  rw [val_main_v13_apply, val_main_v12_apply, val_main_v4_apply, val_main_v10_apply,
    mask_apply, zero_apply, appearance_apply x0 x1 x5 hE hV, biasA_apply x6 hb,
    spatial_apply x2 x3 x7 hkp hB hK, biasS_apply x8 hb]
  exact select_mask _ _

end Cert.MaskedTokens

end
-- ==== Proof.lean ====
/-
  Masked token projection: a tiled kernel against its array-level reference, equal on the extended reals.

  Both programs compute, for each of `64 × 4096` tokens and each of `256` output channels, the sum of two linear
  projections with biases — an appearance projection of the token's 512 embedding channels and its one visibility
  channel, and a spatio-temporal projection of its 4 box channels and 51 keypoint channels — and zero it where the token's
  mask is off. The reference concatenates each projection's two groups of input channels and contracts once against the
  whole weight matrix (513 and 55 rows), then selects between the sum and zero. The kernel cuts each weight matrix at the
  row where the two groups meet, contracts each group on its own (the single visibility channel as a plain product), adds
  in the order `((emb + vis) + bias) + ((box + kp) + bias)`, and multiplies by the mask read as the number 0 or 1; it does
  so tile by tile, `8 × 256` tokens at a time, over an `8 × 16` grid.

  At the exact values the narrowing of the products' operands is the identity and a block product into a zero accumulator
  is the plain sum, so the two differ only by: a sum over 513 (55) concatenated channels against its two parts, which is
  splitting a finite sum — addition on the extended reals is commutative and associative, no finiteness is used —; and
  `select` on a bit against multiplication by that bit's number, `x · 1 = x` and `x · 0 = 0`, which holds for every
  extended real. The common value is `Cert.MaskedTokens.result` (Proof/Tokens.lean). The kernel ends there because every
  grid point writes its block of that one function and the blocks tile the output (Proof/Tile.lean: a tile's stored
  entry; Proof/Tiles.lean: tiles to the whole array, over the generated run with the output array named); the reference
  ends there by reading its generated run one operation at a time (Proof/ReferenceTokens.lean). The three frames are the
  generated ones (the reference's is its run with the result dropped); the idealization rewrote nothing.
-/
import proofs.«138796_j18021682774670_1_alg».proof.Defs
import proofs.«138796_j18021682774670_1_alg».proof.Proof.Gen.Kernel
import proofs.«138796_j18021682774670_1_alg».proof.Proof.Gen.Kernel.Frame
import proofs.«138796_j18021682774670_1_alg».proof.Proof.Gen.KernelIdeal
import proofs.«138796_j18021682774670_1_alg».proof.Proof.Gen.KernelIdeal.Frame
import proofs.«138796_j18021682774670_1_alg».proof.Proof.Gen.KernelIdeal.Value
import proofs.«138796_j18021682774670_1_alg».proof.Proof.Gen.ReferenceIdeal
import proofs.«138796_j18021682774670_1_alg».proof.Proof.Gen.ReferenceIdeal.Run
import proofs.«138796_j18021682774670_1_alg».proof.Proof.Gen.ReferenceIdeal.Read
import proofs.«138796_j18021682774670_1_alg».proof.Proof.Gen.Pre_finite_inputs
import proofs.«138796_j18021682774670_1_alg».proof.Proof.Tokens
import proofs.«138796_j18021682774670_1_alg».proof.Proof.Tile
import proofs.«138796_j18021682774670_1_alg».proof.Proof.Tiles
import proofs.«138796_j18021682774670_1_alg».proof.Proof.ReferenceTokens
import Idealize.ShloMosaic.Adequacy
import Idealize.ShloMosaic.Init

noncomputable section

namespace Cert.Proof

open Idealize.ShloMosaic Idealize.ShloMosaic.TcCoe Idealize.SL.Sem

/-- The tiled program as printed runs and keeps its arguments. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the exact values. -/
theorem preserves : Cert.preserves_Kernel_KernelIdeal := trivial

/-- From memories agreeing on the arguments both programs end with the result array at `result` of the arguments: the
    tiled one because its blocks tile that function, the reference because its stages compose to it. -/
theorem algebraic : Cert.algebraic_KernelIdeal_ReferenceIdeal := by
  intro m ρ m' ρ' _ hagree
  refine ⟨_, Cert.MaskedTokens.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v13_eq, a0, a1, a2, a3, a4, a5, a6, a7, a8]
  exact Cert.MaskedTokens.stage_eq _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
